-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S20x64 : Shape := ⟨2, ![20, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S100000 : Shape := ⟨1, ![100000]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S20x64 : S_.BroadcastsInDim S20x64 (![] : Fin 0 → Fin S20x64.rank)
  reducesTo_S20x64_S_d0_1 : S20x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S64x1 .f32) (main_arg10 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x20 .f32) (main_arg1 : FVec F S20x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) (main_arg11 : IVec S2x1600000 32) (main_arg12 : IVec S100000 32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S20x64 .f32 := Host.absf main_arg1
  let main_cst_0 : FVec F S_ .f32 := constant S_ .f32 0x7F800000#32
  let main_v5 : FVec F S20x64 .f32 := broadcastInDim S20x64 ![] bcast_S_S20x64 main_cst_0
  let main_v6 : IVec S20x64 1 := cmpf .olt main_v4 main_v5
  let main_c_1 : IVec S_ 1 := constantI S_ 1 1#1
  let main_v7 : IVec S_ 1 := (fun x v => Host.reduce IntOp.andi x v reducesTo_S20x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S100000x20 : Shape := ⟨2, ![100000, 20]⟩
abbrev S20x64 : Shape := ⟨2, ![20, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x20 : Shape := ⟨2, ![10000, 20]⟩
abbrev S10000x64 : Shape := ⟨2, ![10000, 64]⟩
abbrev S1700000x64 : Shape := ⟨2, ![1700000, 64]⟩
abbrev S1x64 : Shape := ⟨2, ![1, 64]⟩
abbrev S2000x64 : Shape := ⟨2, ![2000, 64]⟩
abbrev S100000x1 : Shape := ⟨2, ![100000, 1]⟩
abbrev S2000 : Shape := ⟨1, ![2000]⟩
abbrev S2000x1 : Shape := ⟨2, ![2000, 1]⟩
abbrev S1x1 : Shape := ⟨2, ![1, 1]⟩

abbrev nBuf : Space → Nat
  | .hbm => 132
  | .vmem => 36
  | .smem => 0
  | _ => 0

abbrev hbmTy0_0 (i : Nat) : BufTy := match i % 128 with
  | 0 => ⟨S100000x20, .f32⟩
  | 1 => ⟨S20x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S2x1600000, .i32⟩
  | 12 => ⟨S100000, .i32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x64, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S1700000x1, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x64, .f32⟩
  | 86 => ⟨S1700000x64, .f32⟩
  | 87 => ⟨S1700000x64, .f32⟩
  | 88 => ⟨S_, .f32⟩
  | 89 => ⟨S100000x64, .f32⟩
  | 90 => ⟨S1700000x1, .i32⟩
  | 91 => ⟨S100000x64, .f32⟩
  | 92 => ⟨S1x64, .f32⟩
  | 93 => ⟨S100000x64, .f32⟩
  | 94 => ⟨S100000x64, .f32⟩
  | 95 => ⟨S1700000x1, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x64, .f32⟩
  | 105 => ⟨S1700000x64, .f32⟩
  | 106 => ⟨S1700000x64, .f32⟩
  | 107 => ⟨S_, .f32⟩
  | 108 => ⟨S100000x64, .f32⟩
  | 109 => ⟨S1700000x1, .i32⟩
  | 110 => ⟨S100000x64, .f32⟩
  | 111 => ⟨S1x64, .f32⟩
  | 112 => ⟨S100000x64, .f32⟩
  | 113 => ⟨S_, .f32⟩
  | 114 => ⟨S2000x64, .f32⟩
  | 115 => ⟨S100000x1, .i32⟩
  | 116 => ⟨S2000x64, .f32⟩
  | 117 => ⟨S_, .f32⟩
  | 118 => ⟨S100000, .f32⟩
  | 119 => ⟨S_, .f32⟩
  | 120 => ⟨S2000, .f32⟩
  | 121 => ⟨S100000x1, .i32⟩
  | 122 => ⟨S2000, .f32⟩
  | 123 => ⟨S_, .f32⟩
  | 124 => ⟨S2000, .f32⟩
  | 125 => ⟨S2000, .f32⟩
  | 126 => ⟨S2000x1, .f32⟩
  | 127 => ⟨S2000x64, .f32⟩
  | _ => ⟨S100000x20, .f32⟩

abbrev hbmTy0_1 (i : Nat) : BufTy := match i % 128 with
  | 0 => ⟨S2000x64, .f32⟩
  | 1 => ⟨S1x64, .f32⟩
  | 2 => ⟨S1x1, .f32⟩
  | 3 => ⟨S2000x1, .f32⟩
  | _ => ⟨S100000x20, .f32⟩

abbrev hbmTy (i : Nat) : BufTy := match i / 128 with
  | 0 => hbmTy0_0 i
  | 1 => hbmTy0_1 i
  | _ => ⟨S100000x20, .f32⟩

abbrev bufTy : (tb : Table) → Fin (tcTables nBuf tb) → BufTy
  | .hbm, ⟨i, _⟩ => hbmTy i
  | .local _ .vmem, ⟨0, _⟩ => ⟨S10000x20, .f32⟩
  | .local _ .vmem, ⟨1, _⟩ => ⟨S10000x20, .f32⟩
  | .local _ .vmem, ⟨2, _⟩ => ⟨S20x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S2000x64, .f32⟩
  | .local _ .vmem, ⟨31, _⟩ => ⟨S64x64, .f32⟩
  | .local _ .vmem, ⟨32, _⟩ => ⟨S1x64, .f32⟩
  | .local _ .vmem, ⟨33, _⟩ => ⟨S64x1, .f32⟩
  | .local _ .vmem, ⟨34, _⟩ => ⟨S1x1, .f32⟩
  | .local _ .vmem, ⟨35, _⟩ => ⟨S2000x1, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_16 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2000x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2000x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x20_S10000x20_0_0 : ∀ a, (![0, 0] : Fin 2 → Nat) a + S10000x20.size a ≤ S10000x20.size a
  h_S10000x20 : 0 < S10000x20.numel
  bitsLt_bf16_f32 : FTy.bits .bf16 < FTy.bits .f32
  inb_S20x64_S20x64_0_0 : ∀ a, (![0, 0] : Fin 2 → Nat) a + S20x64.size a ≤ S20x64.size a
  h_S20x64 : 0 < S20x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S2000x64 : S_.BroadcastsInDim S2000x64 (![] : Fin 0 → Fin S2000x64.rank)
  bcast_S100000_S100000x1_0 : S100000.BroadcastsInDim S100000x1 (![0] : Fin 1 → Fin S100000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  shapeCasts_S1_S1x1 : S1.ShapeCasts S1x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x20_S20x64_S10000x64_1_0_0_1_n_n_wf : DotDims.WF S10000x20 S20x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x20.size a ≤ S100000x20.size a
  hwx0_0 : ∀ i : grid0.Coords, EltTy.bits .f32 = 32 ∨ (Rect.block (s := S100000x20) S10000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x64.size a ≤ S20x64.size a
  hwx0_1 : ∀ i : grid0.Coords, EltTy.bits .f32 = 32 ∨ (Rect.block (s := S20x64) S20x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S2000x64.size a
  hwx6_0 : ∀ i : grid6.Coords, EltTy.bits .f32 = 32 ∨ (Rect.block (s := S2000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S2000x1.size a
  hwx6_5 : ∀ i : grid6.Coords, EltTy.bits .f32 = 32 ∨ (Rect.block (s := S2000x1) S2000x1.size (cc6_transform_5 i) (hinb6_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x20_S20x64_S10000x64_1_0_0_1_n_n : DotDims S10000x20 S20x64 S10000x64 where
  lhsContracting := [1]
  rhsContracting := [0]
  lhsNonContracting := [0]
  rhsNonContracting := [1]
  lhsBatch := []
  rhsBatch := []
  wf := dot_S10000x20_S20x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S10000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S2000x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v93) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v94) S2000x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x20 : Shape := ⟨2, ![100000, 20]⟩
abbrev S20x64 : Shape := ⟨2, ![20, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S2000x64 : Shape := ⟨2, ![2000, 64]⟩
abbrev S100000x1 : Shape := ⟨2, ![100000, 1]⟩
abbrev S2000 : Shape := ⟨1, ![2000]⟩
abbrev S2000x1 : Shape := ⟨2, ![2000, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S100000x20, .f32⟩
  | 1 => ⟨S20x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S2x1600000, .i32⟩
  | 12 => ⟨S100000, .i32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x64, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S1700000x1, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x64, .f32⟩
  | 90 => ⟨S1700000x64, .f32⟩
  | 91 => ⟨S1700000x64, .f32⟩
  | 92 => ⟨S_, .f32⟩
  | 93 => ⟨S100000x64, .f32⟩
  | 94 => ⟨S1700000x1, .i32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S1700000x1, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x64, .f32⟩
  | 113 => ⟨S1700000x64, .f32⟩
  | 114 => ⟨S1700000x64, .f32⟩
  | 115 => ⟨S_, .f32⟩
  | 116 => ⟨S100000x64, .f32⟩
  | 117 => ⟨S1700000x1, .i32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S_, .f32⟩
  | 126 => ⟨S2000x64, .f32⟩
  | 127 => ⟨S100000x1, .i32⟩
  | _ => ⟨S100000x20, .f32⟩

abbrev hbmTy0_1 (i : Nat) : BufTy := match i % 128 with
  | 0 => ⟨S2000x64, .f32⟩
  | 1 => ⟨S_, .f32⟩
  | 2 => ⟨S100000, .f32⟩
  | 3 => ⟨S_, .f32⟩
  | 4 => ⟨S2000, .f32⟩
  | 5 => ⟨S100000x1, .i32⟩
  | 6 => ⟨S2000, .f32⟩
  | 7 => ⟨S_, .f32⟩
  | 8 => ⟨S2000, .f32⟩
  | 9 => ⟨S2000, .f32⟩
  | 10 => ⟨S2000x1, .f32⟩
  | 11 => ⟨S2000x64, .f32⟩
  | 12 => ⟨S2000x64, .f32⟩
  | 13 => ⟨S2000x64, .f32⟩
  | 14 => ⟨S1x64, .f32⟩
  | 15 => ⟨S2000x64, .f32⟩
  | 16 => ⟨S2000x64, .f32⟩
  | 17 => ⟨S_, .f32⟩
  | 18 => ⟨S2000x64, .f32⟩
  | 19 => ⟨S2000x64, .f32⟩
  | 20 => ⟨S2000x1, .f32⟩
  | 21 => ⟨S1x1, .f32⟩
  | 22 => ⟨S2000x1, .f32⟩
  | 23 => ⟨S2000x1, .f32⟩
  | _ => ⟨S100000x20, .f32⟩

abbrev hbmTy (i : Nat) : BufTy := match i / 128 with
  | 0 => hbmTy0_0 i
  | 1 => hbmTy0_1 i
  | _ => ⟨S100000x20, .f32⟩

abbrev bufTy : (tb : Table) → Fin (tcTables nBuf tb) → BufTy
  | .hbm, ⟨i, _⟩ => hbmTy i
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call2_cst : Ref sig .tc := ⟨.hbm, 99, rfl⟩
abbrev main_call2_v0 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_13 : Ref sig .tc := ⟨.hbm, 104, rfl⟩
abbrev main_v70 : Ref sig .tc := ⟨.hbm, 105, rfl⟩
abbrev main_v71 : Ref sig .tc := ⟨.hbm, 106, rfl⟩
abbrev main_c_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_cst : Ref sig .tc := ⟨.hbm, 122, rfl⟩
abbrev main_call3_v0 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call4_cst : Ref sig .tc := ⟨.hbm, 145, rfl⟩
abbrev main_call4_v0 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2000x64 : S_.BroadcastsInDim S2000x64 (![] : Fin 0 → Fin S2000x64.rank)
  bcast_S100000_S100000x1_0 : S100000.BroadcastsInDim S100000x1 (![0] : Fin 1 → Fin S100000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  bcast_S1x64_S2000x64_0_1 : S1x64.BroadcastsInDim S2000x64 (![0, 1] : Fin 2 → Fin S2000x64.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x20_S20x64_S100000x64_1_0_0_1_n_n_wf : DotDims.WF S100000x20 S20x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x20_S20x64_S100000x64_1_0_0_1_n_n : DotDims S100000x20 S20x64 S100000x64 where
  lhsContracting := [1]
  rhsContracting := [0]
  lhsNonContracting := [0]
  rhsNonContracting := [1]
  lhsBatch := []
  rhsBatch := []
  wf := dot_S100000x20_S20x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

class Facts : Prop extends Facts₀ where

variable [Facts]
-- ==== Proof.StagesR.lean ====
/-
  The network both programs compute, as one function of the thirteen argument arrays, cut into its stages and spelt with
  the host operations of the reference program.

  From the edge list e : [2, 1600000] the source and target columns are rows 0 and 1 of e, each followed by the self loops
  0 … 99999 (`src`, `dst`). The in-degree counts the targets (`deg`), its guarded inverse square root is `dinv`
  (rsqrt of max(deg, 1) where deg > 0, and 0 elsewhere), and an edge's weight is dinv at its source times dinv at its
  target (`norm`), the node ids read with array indexing's wrap of negative values (`wrap`). One graph-convolution
  aggregate (`agg`) gathers the rows of a transformed feature matrix xw at the sources, scales row k by the weight of edge
  k and sums the rows landing on each target. A layer is relu(agg(h · W) + b) (`layer`); `pool` is the mean of the node rows
  of each graph (sum over the graph's nodes divided by max(count, 1)); `head` is relu(g · lw1 + lb1) · lw2 + lb2.
  `net` composes three layers, the pooling and the head. `res_eq`: the reference program's result, as its generated run
  states it, is `net` of the argument arrays — the same term, the stages named.
-/
import proofs.«164145_j66477503807678_1_alg».proof.Proof.RefRun
import Idealize.ShloMosaic.PureOps.Ideal

noncomputable section

namespace Cert.Stages

open Cert.ReferenceIdeal Cert.ReferenceIdeal.Gen Idealize.ShloMosaic Idealize.ShloMosaic.TcCoe Idealize.SL.Sem

/-- Row 0 of the edge list, then the self loops. -/
def src (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge list, then the self loops. -/
def dst (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node ids as a column of start indices, a negative id wrapped by the number of nodes first. -/
def wrap (ix : IVec S1700000 32) : IVec S1700000x1 32 :=
  broadcastInDim S1700000x1 ![0] bcast_S1700000_S1700000x1_0 (select (cmpi .slt ix (broadcastInDim S1700000 ![] bcast_S_S1700000 (constantI S_ 32 0#32))) (addi ix (broadcastInDim S1700000 ![] bcast_S_S1700000 (constantI S_ 32 100000#32))) ix)

/-- The in-degree: ones summed into zeros at the targets. -/
def deg (d : IVec S1700000 32) : FVec Ideal S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- rsqrt (max deg 1) where deg > 0, and 0 elsewhere. -/
def dinv (d : IVec S1700000 32) : FVec Ideal S100000 .f32 :=
  select (cmpf (F := Ideal) .ogt (deg d) (broadcastInDim S100000 ![] bcast_S_S100000 (constant S_ .f32 0x00000000#32))) (Host.rsqrt (maximumf (deg d) (broadcastInDim S100000 ![] bcast_S_S100000 (constant S_ .f32 0x3F800000#32)))) (broadcastInDim S100000 ![] bcast_S_S100000 (id (constant S_ .f32 0x00000000#32)))

/-- An edge's weight: dinv at its source times dinv at its target. -/
def norm (s d : IVec S1700000 32) : FVec Ideal S1700000 .f32 :=
  mulf (Host.gather gather_S100000_S1700000x1_S1700000_n_0_n_n_0_1_1 (dinv d) (wrap s)) (Host.gather gather_S100000_S1700000x1_S1700000_n_0_n_n_0_1_1 (dinv d) (wrap d))

/-- The weighted neighbourhood sum of the rows of xw. -/
def agg (nrm : FVec Ideal S1700000 .f32) (s d : IVec S1700000 32) (xw : FVec Ideal S100000x64 .f32) : FVec Ideal S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (broadcastInDim S1700000x64 ![0, 1] bcast_S1700000x1_S1700000x64_0_1 (broadcastInDim S1700000x1 ![0] bcast_S1700000_S1700000x1_0 nrm)) (Host.gather gather_S100000x64_S1700000x1_S1700000x64_1_0_n_n_0_1_164 xw (wrap s)))

/-- The bias vector laid along every row and added, under the maximum with zero: the host's spelling. -/
def biasReluH (a : FVec Ideal S100000x64 .f32) (b : FVec Ideal S64 .f32) : FVec Ideal S100000x64 .f32 :=
  maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The mean of the node rows of each graph. -/
def pool (h : FVec Ideal S100000x64 .f32) (batch : IVec S100000 32) : FVec Ideal S2000x64 .f32 :=
  Host.divf (Host.scatterAdd scatter_S2000x64_S100000x1_S100000x64_1_0_0_1 (broadcastInDim S2000x64 ![] bcast_S_S2000x64 (constant S_ .f32 0x00000000#32)) (broadcastInDim S100000x1 ![0] bcast_S100000_S100000x1_0 batch) h) (broadcastInDim S2000x64 ![0, 1] bcast_S2000x1_S2000x64_0_1 (broadcastInDim S2000x1 ![0] bcast_S2000_S2000x1_0 (maximumf (Host.scatterAdd scatter_S2000_S100000x1_S100000_n_0_0_1 (broadcastInDim S2000 ![] bcast_S_S2000 (constant S_ .f32 0x00000000#32)) (broadcastInDim S100000x1 ![0] bcast_S100000_S100000x1_0 batch) (broadcastInDim S100000 ![] bcast_S_S100000 (constant S_ .f32 0x3F800000#32))) (broadcastInDim S2000 ![] bcast_S_S2000 (constant S_ .f32 0x3F800000#32)))))

/-- The two-layer head on the pooled rows. -/
def head (g : FVec Ideal S2000x64 .f32) (lw1 : FVec Ideal S64x64 .f32) (lb1 : FVec Ideal S64 .f32) (lw2 : FVec Ideal S64x1 .f32) (lb2 : FVec Ideal S1 .f32) : FVec Ideal S2000x1 .f32 :=
  addf (Host.dotGeneral dot_S2000x64_S64x1_S2000x1_1_0_0_1_n_n none (maximumf (addf (Host.dotGeneral dot_S2000x64_S64x64_S2000x64_1_0_0_1_n_n none g lw1) (broadcastInDim S2000x64 ![0, 1] bcast_S1x64_S2000x64_0_1 (broadcastInDim S1x64 ![1] bcast_S64_S1x64_1 lb1))) (broadcastInDim S2000x64 ![] bcast_S_S2000x64 (constant S_ .f32 0x00000000#32))) lw2) (broadcastInDim S2000x1 ![0, 1] bcast_S1x1_S2000x1_0_1 (broadcastInDim S1x1 ![1] bcast_S1_S1x1_1 lb2))

/-- The whole network on the argument arrays. -/
def net (x : FVec Ideal S100000x20 .f32) (W1 : FVec Ideal S20x64 .f32) (b1 : FVec Ideal S64 .f32) (W2 : FVec Ideal S64x64 .f32) (b2 : FVec Ideal S64 .f32)
    (W3 : FVec Ideal S64x64 .f32) (b3 : FVec Ideal S64 .f32) (lw1 : FVec Ideal S64x64 .f32) (lb1 : FVec Ideal S64 .f32) (lw2 : FVec Ideal S64x1 .f32) (lb2 : FVec Ideal S1 .f32)
    (e : IVec S2x1600000 32) (batch : IVec S100000 32) : FVec Ideal S2000x1 .f32 :=
  head (pool
    (biasReluH (agg (norm (src e) (dst e)) (src e) (dst e) (Host.dotGeneral dot_S100000x64_S64x64_S100000x64_1_0_0_1_n_n none
      (biasReluH (agg (norm (src e) (dst e)) (src e) (dst e) (Host.dotGeneral dot_S100000x64_S64x64_S100000x64_1_0_0_1_n_n none
        (biasReluH (agg (norm (src e) (dst e)) (src e) (dst e) (Host.dotGeneral dot_S100000x20_S20x64_S100000x64_1_0_0_1_n_n none x W1)) b1)
        W2)) b2)
      W3)) b3)
    batch) lw1 lb1 lw2 lb2

set_option maxRecDepth 65536 in
/-- The reference's result is `net` of its argument arrays. -/
theorem res_eq (m : (ℓ : Loc nD τ sig) → Buf (Elt Ideal) ℓ) (c : Dev nD) :
    Cert.ReferenceIdeal.ValueP.res_main_v106 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.ValueP.res_main_v106
  rfl

end Cert.Stages

end
-- ==== Proof.KernelRun.lean ====
/-
  The kernel program's run with its result named. The generated frame proof runs @main's fourteen segments (host
  stretches and the seven pipelined regions) and ends with every unscoped buffer of a core at the last boundary's
  contents; read at the result buffer instead of only at the arguments it says what the result is: the last region's
  output array. This module restates that run with the result in its post (`run_value`).
-/
import proofs.«164145_j66477503807678_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v94) = W14 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v94 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.Hand

end
-- ==== Proof.LibRowTiles.lean ====
/-
  A matrix computed in tiles of rows, read as one function of the whole arrays; and the two ways of laying a bias vector
  along the rows of a matrix before a maximum with zero. Nothing here depends on a program; every extent is a variable.

  * `prod X W` is the product of an M × K matrix and a K × N matrix, entry by entry: (i, j) ↦ Σ_k X(i, k) · W(k, j), an exact
    finite sum of extended reals. The host's `dot_general` with the plain dimension numbers is `prod` (`dotGeneral_eq_prod`).
    A tile of m rows of X times the whole W into the zero accumulator — after the change of float format a kernel makes
    on the way into the product, which is the identity on the ideal values — read at an entry of the tile is `prod X W` at
    the entry of the whole matrix that has the same row of X and the same column of W (`tile_prod_apply`).
  * `biasRelu A r` is (i, j) ↦ max (A(i, j) + r(0, j)) 0 for a one-row matrix r. A tile of rows of A plus the row
    broadcast down the tile, under the maximum with the zero splat, read at an entry of the tile is `biasRelu A r` at the
    matching entry (`tile_biasRelu_apply`); the host's spelling — A plus the vector b broadcast first to one row along axis 1
    and then down the rows, under the maximum with the broadcast zero constant — is `biasRelu A` of b recast as one row
    (`host_biasRelu_eq`). No finiteness is used: each side is the same sum and the same maximum.
-/
import Idealize.ShloMosaic.Lib.StackMember
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowTiles

open Idealize.ShloMosaic Idealize.ShloMosaic.ValueIdx

/-- The product of an M × K matrix and a K × N matrix, entry by entry. -/
def prod {M K N : Nat} (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

/-- The host's product with the plain dimension numbers is `prod`. -/
theorem dotGeneral_eq_prod {M K N : Nat} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) : Host.dotGeneral d none X W = prod X W := by
  subst hd
  funext j
  conv_lhs => rw [eq_ix2 j]
  exact StackMember.dotGeneral_plain_apply none X W (j 0) (j 1)

/-- A tile's product into the zero accumulator, at an entry whose row of the tile is row `i 0` of X and whose column of
    the weights is column `i 1` of W, is the whole product at `i`. -/
theorem tile_prod_apply {m M K N : Nat} (d : DotDims ⟨2, ![m, K]⟩ ⟨2, ![K, N]⟩ ⟨2, ![m, N]⟩) (hd : d = DotDims.plain m K N)
    (h1 : FTy.bf16.bits < FTy.f32.bits)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 xb h1) (truncf .bf16 wb h1) (constant ⟨2, ![m, N]⟩ .f32 0x00000000#32) y = prod X W i := by
  subst hd
  rw [matmul_zero_eq_dotGeneral]
  conv_lhs => rw [eq_ix2 y]
  refine (StackMember.dotGeneral_plain_apply none (truncf .bf16 xb h1) (truncf .bf16 wb h1) (y 0) (y 1)).trans ?_
  exact Finset.sum_congr rfl fun k _ => congrArg₂ (· * ·) (hx k) (hw k)

/-- The same with the tile passed through a cast to its own shape first (how a kernel reads a block it has just loaded). -/
theorem tile_prod_cast_apply {m M K N : Nat} (d : DotDims ⟨2, ![m, K]⟩ ⟨2, ![K, N]⟩ ⟨2, ![m, N]⟩) (hd : d = DotDims.plain m K N)
    (h1 : FTy.bf16.bits < FTy.f32.bits) (hs : (⟨2, ![m, K]⟩ : Shape).ShapeCasts ⟨2, ![m, K]⟩)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 (shapeCast ⟨2, ![m, K]⟩ xb hs) h1) (truncf .bf16 wb h1) (constant ⟨2, ![m, N]⟩ .f32 0x00000000#32) y = prod X W i := by
  rw [shapeCast_self]
  exact tile_prod_apply d hd h1 xb wb X W y i hx hw

/-- A matrix plus a one-row matrix laid along every row, under the maximum with zero, entry by entry. -/
def biasRelu {M n : Nat} (A : FVec Ideal ⟨2, ![M, n]⟩ .f32) (r : FVec Ideal ⟨2, ![1, n]⟩ .f32) : FVec Ideal ⟨2, ![M, n]⟩ .f32 :=
  fun i => max (A i + r (ix2 (0 : Fin 1) (i 1))) (Ideal.ofBits .f32 0x00000000#32)

/-- A one-row matrix broadcast down m rows in the kernel's spelling, read at an entry, is the row at that column. -/
theorem broadcastTo_oneRow_at {α : Type} {m n : Nat} (b : (⟨2, ![1, n]⟩ : Shape).Idx → α)
    (hb : (⟨2, ![1, n]⟩ : Shape).Broadcasts ⟨2, ![m, n]⟩) (y : (⟨2, ![m, n]⟩ : Shape).Idx) :
    broadcastTo ⟨2, ![m, n]⟩ b hb y = b (ix2 (0 : Fin 1) (y 1)) := by
  refine broadcastTo_apply b hb y (ix2 (0 : Fin 1) (y 1)) ?_
  intro a
  match a with
  | ⟨0, _⟩ => rfl
  | ⟨1, _⟩ =>
    show (y 1).val = if n = 1 then 0 else (y 1).val
    split
    · have := idx2_lt1 y; omega
    · rfl

/-- A tile of rows plus the row broadcast down the tile, under the maximum with the zero splat, at an entry of the tile. -/
theorem tile_biasRelu_apply {m M n : Nat} (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf ab (broadcastTo ⟨2, ![m, n]⟩ rb hb)) (broadcast ⟨2, ![m, n]⟩ (Scalar.ofBits (F := Ideal) .f32 0x00000000#32)) y
      = biasRelu A r i := by
  show max (ab y + broadcastTo ⟨2, ![m, n]⟩ rb hb y) (Ideal.ofBits .f32 0x00000000#32) = max (A i + r (ix2 (0 : Fin 1) (i 1))) _
  rw [broadcastTo_oneRow_at rb hb y, ha, hr]

/-- The same with the tile and the row each passed through a cast to its own shape first. -/
theorem tile_biasRelu_cast_apply {m M n : Nat} (hs1 : (⟨2, ![m, n]⟩ : Shape).ShapeCasts ⟨2, ![m, n]⟩)
    (hs2 : (⟨2, ![1, n]⟩ : Shape).ShapeCasts ⟨2, ![1, n]⟩) (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf (shapeCast ⟨2, ![m, n]⟩ ab hs1) (broadcastTo ⟨2, ![m, n]⟩ (shapeCast ⟨2, ![1, n]⟩ rb hs2) hb))
        (broadcast ⟨2, ![m, n]⟩ (Scalar.ofBits (F := Ideal) .f32 0x00000000#32)) y
      = biasRelu A r i := by
  rw [shapeCast_self, shapeCast_self]
  exact tile_biasRelu_apply hb ab rb A r y i ha hr

/-- The host's spelling of the same function of the whole arrays: the bias vector b broadcast to one row along axis 1 and
    then down the rows, added, under the maximum with the broadcast zero constant. -/
theorem host_biasRelu_eq {M n : Nat} (dims0 : Fin 0 → Fin 2)
    (hd1 : (⟨1, ![n]⟩ : Shape).BroadcastsInDim ⟨2, ![1, n]⟩ ![1])
    (hd2 : (⟨2, ![1, n]⟩ : Shape).BroadcastsInDim ⟨2, ![M, n]⟩ ![0, 1])
    (h0 : (⟨0, ![]⟩ : Shape).BroadcastsInDim ⟨2, ![M, n]⟩ dims0)
    (h1 : (⟨1, ![n]⟩ : Shape).ShapeCasts ⟨2, ![1, n]⟩)
    (A : FVec Ideal ⟨2, ![M, n]⟩ .f32) (b : FVec Ideal ⟨1, ![n]⟩ .f32) :
    maximumf (addf A (broadcastInDim ⟨2, ![M, n]⟩ ![0, 1] hd2 (broadcastInDim ⟨2, ![1, n]⟩ ![1] hd1 b)))
        (broadcastInDim ⟨2, ![M, n]⟩ dims0 h0 (constant (F := Ideal) ⟨0, ![]⟩ .f32 0x00000000#32))
      = biasRelu A (shapeCast ⟨2, ![1, n]⟩ b h1) := by
  funext i
  show max (A i + broadcastInDim ⟨2, ![M, n]⟩ ![0, 1] hd2 (broadcastInDim ⟨2, ![1, n]⟩ ![1] hd1 b) i) (Ideal.ofBits .f32 0x00000000#32)
    = max (A i + shapeCast ⟨2, ![1, n]⟩ b h1 (ix2 (0 : Fin 1) (i 1))) _
  have e1 : broadcastInDim ⟨2, ![M, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  have e2 : broadcastInDim ⟨2, ![1, n]⟩ ![1] hd1 b (ix2 (0 : Fin 1) (i 1)) = b (ix1 (i 1)) := by
    refine broadcastInDim_apply ![1] hd1 b (ix2 (0 : Fin 1) (i 1)) (ix1 (i 1)) ?_
    intro a
    match a with
    | ⟨0, _⟩ =>
      show (i 1).val = if n = 1 then 0 else (i 1).val
      split
      · have := idx2_lt1 i; omega
      · rfl
  have e3 : shapeCast ⟨2, ![1, n]⟩ b h1 (ix2 (0 : Fin 1) (i 1)) = b (ix1 (i 1)) := by
    refine shapeCast_apply b h1 (ix2 (0 : Fin 1) (i 1)) (ix1 (i 1)) ?_
    rw [Shape.rowMajor_val_two, Shape.rowMajor_val_one]
    show (i 1).val = 0 * n + (i 1).val
    omega
  rw [e1, e2, e3]

/-- A vector recast as one row and broadcast down m rows (the kernel's spelling), at an entry, is the vector at the column. -/
theorem kernelRow_apply {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (i : (⟨2, ![m, n]⟩ : Shape).Idx) : broadcastTo ⟨2, ![m, n]⟩ (shapeCast ⟨2, ![1, n]⟩ b h1) hb i = b (ix1 (i 1)) := by
  rw [broadcastTo_oneRow_at]
  refine shapeCast_apply b h1 (ix2 (0 : Fin 1) (i 1)) (ix1 (i 1)) ?_
  rw [Shape.rowMajor_val_two, Shape.rowMajor_val_one]
  show (i 1).val = 0 * n + (i 1).val
  omega

/-- A vector broadcast to one row along axis 1 and then down m rows (the host's spelling), at an entry, is the vector at
    the column. -/
theorem hostRow_apply {α : Type} {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1])
    (i : (⟨2, ![m, n]⟩ : Shape).Idx) :
    broadcastInDim ⟨2, ![m, n]⟩ ![0, 1] hd2 (broadcastInDim ⟨2, ![1, n]⟩ ![1] hd1 b) i = b (ix1 (i 1)) := by
  have e1 : broadcastInDim ⟨2, ![m, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  rw [e1]
  refine broadcastInDim_apply ![1] hd1 b (ix2 (0 : Fin 1) (i 1)) (ix1 (i 1)) ?_
  intro a
  match a with
  | ⟨0, _⟩ =>
    show (i 1).val = if n = 1 then 0 else (i 1).val
    split
    · have := idx2_lt1 i; omega
    · rfl

/-- The two spellings of a vector laid along every row are one array. -/
theorem kernelRow_eq_hostRow {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) :=
  funext fun i => (kernelRow_apply b h1 hb i).trans (hostRow_apply b hd1 hd2 i).symm

/-- A whole matrix as its own tile: the kernel's product of the whole arrays into the zero accumulator is `prod`. -/
theorem matmul_eq_prod {M K N : Nat} (d : DotDims ⟨2, ![M, K]⟩ ⟨2, ![K, N]⟩ ⟨2, ![M, N]⟩) (hd : d = DotDims.plain M K N)
    (h1 : FTy.bf16.bits < FTy.f32.bits) (X : FVec Ideal ⟨2, ![M, K]⟩ .f32) (W : FVec Ideal ⟨2, ![K, N]⟩ .f32) :
    matmul d none (truncf .bf16 X h1) (truncf .bf16 W h1) (constant ⟨2, ![M, N]⟩ .f32 0x00000000#32) = prod X W :=
  funext fun y => tile_prod_apply d hd h1 X W X W y y (fun _ => rfl) (fun _ => rfl)

/-- A whole matrix as its own tile: the kernel's bias and relu of the whole arrays is `biasRelu`. -/
theorem kernel_biasRelu_eq {M n : Nat} (hb : (⟨2, ![1, n]⟩ : Shape).Broadcasts ⟨2, ![M, n]⟩)
    (A : FVec Ideal ⟨2, ![M, n]⟩ .f32) (r : FVec Ideal ⟨2, ![1, n]⟩ .f32) :
    maximumf (addf A (broadcastTo ⟨2, ![M, n]⟩ r hb)) (broadcast ⟨2, ![M, n]⟩ (Scalar.ofBits (F := Ideal) .f32 0x00000000#32))
      = biasRelu A r :=
  funext fun y => tile_biasRelu_apply hb A r A r y y rfl rfl

end Cert.LibRowTiles

end
-- ==== Proof.Region0.lean ====
/-
  Region 0 of the kernel program: the first layer's feature transform, a [100000, 20] matrix times a [20, 64] weight
  matrix in ten tiles of 10000 rows. Whatever the buffers hold when the region is entered, the output array after the
  region is the product of the two whole input arrays: tile t of the output is rows 10000·t … 10000·t + 9999 of the product,
  because the tile's rows of the left operand are those rows of the whole operand and the weights' window is the whole
  weight matrix at every point; the ten tiles cover the output.
-/
import proofs.«164145_j66477503807678_1_alg».proof.Proof.Gen.KernelIdeal.Frame
import proofs.«164145_j66477503807678_1_alg».proof.Proof.LibRowTiles
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LibRowTiles

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the left operand's tile and the output's tile are both tile t along the rows
    and whole along the columns; the weights' window never moves. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the product of the whole arrays. -/
theorem flushed0 (c : Dev nD) (t : Fin cfg0.N) :
    (dat0 V c).flushed 2 t = ((cfg0.win 2).blk t).view.read (Elt Ideal) (prod (V c main_arg0) (V c main_arg1)) := by
  show (cfg0.win 2).cut (grid0.coords t) ((dat0 V c).after 2 t) = _
  rw [after0_2]
  unfold out0_2
  rw [View.canon_unit_zero hz0]
  simp only [View.ld_unit_zero (S := S10000x20) hz0, View.ld_unit_zero (S := S20x64) hz0]
  obtain ⟨e0, e1, e2, e3, e4, e5⟩ := idx0 t
  funext y
  show k0_pay1 (iblk0 V c 0 t) (iblk0 V c 1 t) y = prod (V c main_arg0) (V c main_arg1) (((cfg0.win 2).blk t).view.emb y)
  refine tile_prod_apply dot_S10000x20_S20x64_S10000x64_1_0_0_1_n_n rfl bitsLt_bf16_f32 (iblk0 V c 0 t) (iblk0 V c 1 t)
    (V c main_arg0) (V c main_arg1) y (((cfg0.win 2).blk t).view.emb y) ?_ ?_
  · intro k
    show V c main_arg0 (((cfg0.win 0).blk t).view.emb (ix2 (y 0) k)) = V c main_arg0 (ix2 ((((cfg0.win 2).blk t).view.emb y) 0) k)
    refine congrArg (V c main_arg0) (funext fun a => Fin.ext ?_)
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 20 + 1 * k.val = k.val; omega
  · intro k
    show V c main_arg1 (((cfg0.win 1).blk t).view.emb (ix2 k (y 1))) = V c main_arg1 (ix2 k ((((cfg0.win 2).blk t).view.emb y) 1))
    refine congrArg (V c main_arg1) (funext fun a => Fin.ext ?_)
    match a with
    | ⟨0, _⟩ => show win0_1.index t (0 : Fin 2) * 20 + 1 * k.val = k.val; omega
    | ⟨1, _⟩ => show win0_1.index t (1 : Fin 2) * 64 + 1 * (y 1).val = win0_2.index t (1 : Fin 2) * 64 + 1 * (y 1).val; omega

/-- An index of the output array is in point t's tile iff each coordinate is in the tile's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The output array after region 0 is the product of the two input arrays as the region found them. -/
theorem arr0 (c : Dev nD) : (dat0 V c).arrAt 2 cfg0.N = prod (V c main_arg0) (V c main_arg1) := by
  refine (dat0 V c).arrAt_eq_of_cover 2 (prod (V c main_arg0) (V c main_arg1)) (fun t _ => flushed0 V c t) fun i => ?_
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := idx0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

end Cert.KernelIdeal.Hand

end
-- ==== Proof.Region1.lean ====
/-
  Region 1 of the kernel program: the first layer's bias and relu, on a [100000, 64] matrix in ten tiles of 10000 rows, the
  bias a one-row matrix [1, 64] whose window is the whole row at every point. Whatever the buffers hold when the region is
  entered, the output array after the region is, entry (i, j), max (A(i, j) + r(0, j)) 0 of the two input arrays A and r:
  tile t of the output is rows 10000·t … 10000·t + 9999 of that function, and the ten tiles cover the output.
-/
import proofs.«164145_j66477503807678_1_alg».proof.Proof.Gen.KernelIdeal.Frame
import proofs.«164145_j66477503807678_1_alg».proof.Proof.LibRowTiles
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LibRowTiles

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the matrix's tile and the output's tile are both tile t along the rows and
    whole along the columns; the bias row's window never moves. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is tile t of relu(A + r) of the whole arrays. -/
theorem flushed1 (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero hz1]
  simp only [View.ld_unit_zero (S := S10000x64) hz1, View.ld_unit_zero (S := S1x64) hz1]
  obtain ⟨e0, e1, e2, e3, e4, e5⟩ := idx1 t
  funext y
  show k1_pay1 (iblk1 V c 0 t) (iblk1 V c 1 t) y = biasRelu (V c main_v45) (V c main_v46) (((cfg1.win 2).blk t).view.emb y)
  refine tile_biasRelu_cast_apply shapeCasts_S10000x64_S10000x64 shapeCasts_S1x64_S1x64 broadcasts_S1x64_S10000x64
    (iblk1 V c 0 t) (iblk1 V c 1 t) (V c main_v45) (V c main_v46) y (((cfg1.win 2).blk t).view.emb y) ?_ ?_
  · show V c main_v45 (((cfg1.win 0).blk t).view.emb y) = V c main_v45 (((cfg1.win 2).blk t).view.emb y)
    refine congrArg (V c main_v45) (funext fun a => Fin.ext ?_)
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 64 + 1 * (y 1).val = win1_2.index t (1 : Fin 2) * 64 + 1 * (y 1).val; omega
  · show V c main_v46 (((cfg1.win 1).blk t).view.emb (ix2 (0 : Fin 1) (y 1))) = V c main_v46 (ix2 (0 : Fin 1) ((((cfg1.win 2).blk t).view.emb y) 1))
    refine congrArg (V c main_v46) (funext fun a => Fin.ext ?_)
    match a with
    | ⟨0, _⟩ => show win1_1.index t (0 : Fin 2) * 1 + 1 * 0 = 0; omega
    | ⟨1, _⟩ => show win1_1.index t (1 : Fin 2) * 64 + 1 * (y 1).val = win1_2.index t (1 : Fin 2) * 64 + 1 * (y 1).val; omega

/-- An index of the output array is in point t's tile iff each coordinate is in the tile's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- The output array after region 1 is relu(A + r) of the two input arrays as the region found them. -/
theorem arr1 (c : Dev nD) : (dat1 V c).arrAt 2 cfg1.N = biasRelu (V c main_v45) (V c main_v46) := by
  refine (dat1 V c).arrAt_eq_of_cover 2 (biasRelu (V c main_v45) (V c main_v46)) (fun t _ => flushed1 V c t) fun i => ?_
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3, e4, e5⟩ := idx1 t
  have ht : t.val = (i 0).val / 10000 := rfl
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

end Cert.KernelIdeal.Hand

end
-- ==== Proof.Region2.lean ====
/-
  Region 2 of the kernel program: the second layer's feature transform, a [100000, 64] matrix times a [64, 64] weight
  matrix in ten tiles of 10000 rows. Whatever the buffers hold when the region is entered, the output array after the
  region is the product of the two whole input arrays: tile t of the output is rows 10000·t … 10000·t + 9999 of the product,
  because the tile's rows of the left operand are those rows of the whole operand and the weights' window is the whole
  weight matrix at every point; the ten tiles cover the output.
-/
import proofs.«164145_j66477503807678_1_alg».proof.Proof.Gen.KernelIdeal.Frame
import proofs.«164145_j66477503807678_1_alg».proof.Proof.LibRowTiles
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LibRowTiles

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the left operand's tile and the output's tile are both tile t along the rows
    and whole along the columns; the weights' window never moves. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is tile t of the product of the whole arrays. -/
theorem flushed2 (c : Dev nD) (t : Fin cfg2.N) :
    (dat2 V c).flushed 2 t = ((cfg2.win 2).blk t).view.read (Elt Ideal) (prod (V c main_v47) (V c main_arg3)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S64x64) hz2]
  obtain ⟨e0, e1, e2, e3, e4, e5⟩ := idx2 t
  funext y
  show k2_pay1 (iblk2 V c 0 t) (iblk2 V c 1 t) y = prod (V c main_v47) (V c main_arg3) (((cfg2.win 2).blk t).view.emb y)
  refine tile_prod_cast_apply dot_S10000x64_S64x64_S10000x64_1_0_0_1_n_n rfl bitsLt_bf16_f32 shapeCasts_S10000x64_S10000x64
    (iblk2 V c 0 t) (iblk2 V c 1 t) (V c main_v47) (V c main_arg3) y (((cfg2.win 2).blk t).view.emb y) ?_ ?_
  · intro k
    show V c main_v47 (((cfg2.win 0).blk t).view.emb (ix2 (y 0) k)) = V c main_v47 (ix2 ((((cfg2.win 2).blk t).view.emb y) 0) k)
    refine congrArg (V c main_v47) (funext fun a => Fin.ext ?_)
    match a with
    | ⟨0, _⟩ => show win2_0.index t (0 : Fin 2) * 10000 + 1 * (y 0).val = win2_2.index t (0 : Fin 2) * 10000 + 1 * (y 0).val; omega
    | ⟨1, _⟩ => show win2_0.index t (1 : Fin 2) * 64 + 1 * k.val = k.val; omega
  · intro k
    show V c main_arg3 (((cfg2.win 1).blk t).view.emb (ix2 k (y 1))) = V c main_arg3 (ix2 k ((((cfg2.win 2).blk t).view.emb y) 1))
    refine congrArg (V c main_arg3) (funext fun a => Fin.ext ?_)
    match a with
    | ⟨0, _⟩ => show win2_1.index t (0 : Fin 2) * 64 + 1 * k.val = k.val; omega
    | ⟨1, _⟩ => show win2_1.index t (1 : Fin 2) * 64 + 1 * (y 1).val = win2_2.index t (1 : Fin 2) * 64 + 1 * (y 1).val; omega

/-- An index of the output array is in point t's tile iff each coordinate is in the tile's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- The output array after region 2 is the product of the two input arrays as the region found them. -/
theorem arr2 (c : Dev nD) : (dat2 V c).arrAt 2 cfg2.N = prod (V c main_v47) (V c main_arg3) := by
  refine (dat2 V c).arrAt_eq_of_cover 2 (prod (V c main_v47) (V c main_arg3)) (fun t _ => flushed2 V c t) fun i => ?_
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨e0, e1, e2, e3, e4, e5⟩ := idx2 t
  have ht : t.val = (i 0).val / 10000 := rfl
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

end Cert.KernelIdeal.Hand

end
-- ==== Proof.Region3.lean ====
/-
  Region 3 of the kernel program: the second layer's bias and relu, on a [100000, 64] matrix in ten tiles of 10000 rows, the
  bias a one-row matrix [1, 64] whose window is the whole row at every point. Whatever the buffers hold when the region is
  entered, the output array after the region is, entry (i, j), max (A(i, j) + r(0, j)) 0 of the two input arrays A and r:
  tile t of the output is rows 10000·t … 10000·t + 9999 of that function, and the ten tiles cover the output.
-/
import proofs.«164145_j66477503807678_1_alg».proof.Proof.Gen.KernelIdeal.Frame
import proofs.«164145_j66477503807678_1_alg».proof.Proof.LibRowTiles
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LibRowTiles

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the matrix's tile and the output's tile are both tile t along the rows and
    whole along the columns; the bias row's window never moves. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is tile t of relu(A + r) of the whole arrays. -/
theorem flushed3 (c : Dev nD) (t : Fin cfg3.N) :
    (dat3 V c).flushed 2 t = ((cfg3.win 2).blk t).view.read (Elt Ideal) (biasRelu (V c main_v61) (V c main_v62)) := by
  show (cfg3.win 2).cut (grid3.coords t) ((dat3 V c).after 2 t) = _
  rw [after3_2]
  unfold out3_2
  rw [View.canon_unit_zero hz3]
  simp only [View.ld_unit_zero (S := S10000x64) hz3, View.ld_unit_zero (S := S1x64) hz3]
  obtain ⟨e0, e1, e2, e3, e4, e5⟩ := idx3 t
  funext y
  show k3_pay1 (iblk3 V c 0 t) (iblk3 V c 1 t) y = biasRelu (V c main_v61) (V c main_v62) (((cfg3.win 2).blk t).view.emb y)
  refine tile_biasRelu_cast_apply shapeCasts_S10000x64_S10000x64 shapeCasts_S1x64_S1x64 broadcasts_S1x64_S10000x64
    (iblk3 V c 0 t) (iblk3 V c 1 t) (V c main_v61) (V c main_v62) y (((cfg3.win 2).blk t).view.emb y) ?_ ?_
  · show V c main_v61 (((cfg3.win 0).blk t).view.emb y) = V c main_v61 (((cfg3.win 2).blk t).view.emb y)
    refine congrArg (V c main_v61) (funext fun a => Fin.ext ?_)
    match a with
    | ⟨0, _⟩ => show win3_0.index t (0 : Fin 2) * 10000 + 1 * (y 0).val = win3_2.index t (0 : Fin 2) * 10000 + 1 * (y 0).val; omega
    | ⟨1, _⟩ => show win3_0.index t (1 : Fin 2) * 64 + 1 * (y 1).val = win3_2.index t (1 : Fin 2) * 64 + 1 * (y 1).val; omega
  · show V c main_v62 (((cfg3.win 1).blk t).view.emb (ix2 (0 : Fin 1) (y 1))) = V c main_v62 (ix2 (0 : Fin 1) ((((cfg3.win 2).blk t).view.emb y) 1))
    refine congrArg (V c main_v62) (funext fun a => Fin.ext ?_)
    match a with
    | ⟨0, _⟩ => show win3_1.index t (0 : Fin 2) * 1 + 1 * 0 = 0; omega
    | ⟨1, _⟩ => show win3_1.index t (1 : Fin 2) * 64 + 1 * (y 1).val = win3_2.index t (1 : Fin 2) * 64 + 1 * (y 1).val; omega

/-- An index of the output array is in point t's tile iff each coordinate is in the tile's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v63).slice (win3_2.rect t)).set ↔ _
  rw [View.set_slice_whole, Rect.mem_set_unit]
  exact Iff.rfl

/-- The output array after region 3 is relu(A + r) of the two input arrays as the region found them. -/
theorem arr3 (c : Dev nD) : (dat3 V c).arrAt 2 cfg3.N = biasRelu (V c main_v61) (V c main_v62) := by
  refine (dat3 V c).arrAt_eq_of_cover 2 (biasRelu (V c main_v61) (V c main_v62)) (fun t _ => flushed3 V c t) fun i => ?_
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨e0, e1, e2, e3, e4, e5⟩ := idx3 t
  have ht : t.val = (i 0).val / 10000 := rfl
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

end Cert.KernelIdeal.Hand

end
-- ==== Proof.Region4.lean ====
/-
  Region 4 of the kernel program: the third layer's feature transform, a [100000, 64] matrix times a [64, 64] weight
  matrix in ten tiles of 10000 rows. Whatever the buffers hold when the region is entered, the output array after the
  region is the product of the two whole input arrays: tile t of the output is rows 10000·t … 10000·t + 9999 of the product,
  because the tile's rows of the left operand are those rows of the whole operand and the weights' window is the whole
  weight matrix at every point; the ten tiles cover the output.
-/
import proofs.«164145_j66477503807678_1_alg».proof.Proof.Gen.KernelIdeal.Frame
import proofs.«164145_j66477503807678_1_alg».proof.Proof.LibRowTiles
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LibRowTiles

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the left operand's tile and the output's tile are both tile t along the rows
    and whole along the columns; the weights' window never moves. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is tile t of the product of the whole arrays. -/
theorem flushed4 (c : Dev nD) (t : Fin cfg4.N) :
    (dat4 V c).flushed 2 t = ((cfg4.win 2).blk t).view.read (Elt Ideal) (prod (V c main_v63) (V c main_arg5)) := by
  show (cfg4.win 2).cut (grid4.coords t) ((dat4 V c).after 2 t) = _
  rw [after4_2]
  unfold out4_2
  rw [View.canon_unit_zero hz4]
  simp only [View.ld_unit_zero (S := S10000x64) hz4, View.ld_unit_zero (S := S64x64) hz4]
  obtain ⟨e0, e1, e2, e3, e4, e5⟩ := idx4 t
  funext y
  show k4_pay1 (iblk4 V c 0 t) (iblk4 V c 1 t) y = prod (V c main_v63) (V c main_arg5) (((cfg4.win 2).blk t).view.emb y)
  refine tile_prod_cast_apply dot_S10000x64_S64x64_S10000x64_1_0_0_1_n_n rfl bitsLt_bf16_f32 shapeCasts_S10000x64_S10000x64
    (iblk4 V c 0 t) (iblk4 V c 1 t) (V c main_v63) (V c main_arg5) y (((cfg4.win 2).blk t).view.emb y) ?_ ?_
  · intro k
    show V c main_v63 (((cfg4.win 0).blk t).view.emb (ix2 (y 0) k)) = V c main_v63 (ix2 ((((cfg4.win 2).blk t).view.emb y) 0) k)
    refine congrArg (V c main_v63) (funext fun a => Fin.ext ?_)
    match a with
    | ⟨0, _⟩ => show win4_0.index t (0 : Fin 2) * 10000 + 1 * (y 0).val = win4_2.index t (0 : Fin 2) * 10000 + 1 * (y 0).val; omega
    | ⟨1, _⟩ => show win4_0.index t (1 : Fin 2) * 64 + 1 * k.val = k.val; omega
  · intro k
    show V c main_arg5 (((cfg4.win 1).blk t).view.emb (ix2 k (y 1))) = V c main_arg5 (ix2 k ((((cfg4.win 2).blk t).view.emb y) 1))
    refine congrArg (V c main_arg5) (funext fun a => Fin.ext ?_)
    match a with
    | ⟨0, _⟩ => show win4_1.index t (0 : Fin 2) * 64 + 1 * k.val = k.val; omega
    | ⟨1, _⟩ => show win4_1.index t (1 : Fin 2) * 64 + 1 * (y 1).val = win4_2.index t (1 : Fin 2) * 64 + 1 * (y 1).val; omega

/-- An index of the output array is in point t's tile iff each coordinate is in the tile's range on its axis. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v64).slice (win4_2.rect t)).set ↔ _
  rw [View.set_slice_whole, Rect.mem_set_unit]
  exact Iff.rfl

/-- The output array after region 4 is the product of the two input arrays as the region found them. -/
theorem arr4 (c : Dev nD) : (dat4 V c).arrAt 2 cfg4.N = prod (V c main_v63) (V c main_arg5) := by
  refine (dat4 V c).arrAt_eq_of_cover 2 (prod (V c main_v63) (V c main_arg5)) (fun t _ => flushed4 V c t) fun i => ?_
  have hi0 : (i 0).val < 100000 := (i 0).isLt
  have hi1 : (i 1).val < 64 := (i 1).isLt
  have hN : cfg4.N = 10 := N_4
  let t : Fin cfg4.N := ⟨(i 0).val / 10000, by rw [hN]; omega⟩
  obtain ⟨e0, e1, e2, e3, e4, e5⟩ := idx4 t
  have ht : t.val = (i 0).val / 10000 := rfl
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

end Cert.KernelIdeal.Hand

end
-- ==== Proof.Region5.lean ====
/-
  Region 5 of the kernel program: the third layer's bias and relu, on a [100000, 64] matrix in ten tiles of 10000 rows, the
  bias a one-row matrix [1, 64] whose window is the whole row at every point. Whatever the buffers hold when the region is
  entered, the output array after the region is, entry (i, j), max (A(i, j) + r(0, j)) 0 of the two input arrays A and r:
  tile t of the output is rows 10000·t … 10000·t + 9999 of that function, and the ten tiles cover the output.
-/
import proofs.«164145_j66477503807678_1_alg».proof.Proof.Gen.KernelIdeal.Frame
import proofs.«164145_j66477503807678_1_alg».proof.Proof.LibRowTiles
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LibRowTiles

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the matrix's tile and the output's tile are both tile t along the rows and
    whole along the columns; the bias row's window never moves. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is tile t of relu(A + r) of the whole arrays. -/
theorem flushed5 (c : Dev nD) (t : Fin cfg5.N) :
    (dat5 V c).flushed 2 t = ((cfg5.win 2).blk t).view.read (Elt Ideal) (biasRelu (V c main_v77) (V c main_v78)) := by
  show (cfg5.win 2).cut (grid5.coords t) ((dat5 V c).after 2 t) = _
  rw [after5_2]
  unfold out5_2
  rw [View.canon_unit_zero hz5]
  simp only [View.ld_unit_zero (S := S10000x64) hz5, View.ld_unit_zero (S := S1x64) hz5]
  obtain ⟨e0, e1, e2, e3, e4, e5⟩ := idx5 t
  funext y
  show k5_pay1 (iblk5 V c 0 t) (iblk5 V c 1 t) y = biasRelu (V c main_v77) (V c main_v78) (((cfg5.win 2).blk t).view.emb y)
  refine tile_biasRelu_cast_apply shapeCasts_S10000x64_S10000x64 shapeCasts_S1x64_S1x64 broadcasts_S1x64_S10000x64
    (iblk5 V c 0 t) (iblk5 V c 1 t) (V c main_v77) (V c main_v78) y (((cfg5.win 2).blk t).view.emb y) ?_ ?_
  · show V c main_v77 (((cfg5.win 0).blk t).view.emb y) = V c main_v77 (((cfg5.win 2).blk t).view.emb y)
    refine congrArg (V c main_v77) (funext fun a => Fin.ext ?_)
    match a with
    | ⟨0, _⟩ => show win5_0.index t (0 : Fin 2) * 10000 + 1 * (y 0).val = win5_2.index t (0 : Fin 2) * 10000 + 1 * (y 0).val; omega
    | ⟨1, _⟩ => show win5_0.index t (1 : Fin 2) * 64 + 1 * (y 1).val = win5_2.index t (1 : Fin 2) * 64 + 1 * (y 1).val; omega
  · show V c main_v78 (((cfg5.win 1).blk t).view.emb (ix2 (0 : Fin 1) (y 1))) = V c main_v78 (ix2 (0 : Fin 1) ((((cfg5.win 2).blk t).view.emb y) 1))
    refine congrArg (V c main_v78) (funext fun a => Fin.ext ?_)
    match a with
    | ⟨0, _⟩ => show win5_1.index t (0 : Fin 2) * 1 + 1 * 0 = 0; omega
    | ⟨1, _⟩ => show win5_1.index t (1 : Fin 2) * 64 + 1 * (y 1).val = win5_2.index t (1 : Fin 2) * 64 + 1 * (y 1).val; omega

/-- An index of the output array is in point t's tile iff each coordinate is in the tile's range on its axis. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v79).slice (win5_2.rect t)).set ↔ _
  rw [View.set_slice_whole, Rect.mem_set_unit]
  exact Iff.rfl

/-- The output array after region 5 is relu(A + r) of the two input arrays as the region found them. -/
theorem arr5 (c : Dev nD) : (dat5 V c).arrAt 2 cfg5.N = biasRelu (V c main_v77) (V c main_v78) := by
  refine (dat5 V c).arrAt_eq_of_cover 2 (biasRelu (V c main_v77) (V c main_v78)) (fun t _ => flushed5 V c t) fun i => ?_
  have hi0 : (i 0).val < 100000 := (i 0).isLt
  have hi1 : (i 1).val < 64 := (i 1).isLt
  have hN : cfg5.N = 10 := N_5
  let t : Fin cfg5.N := ⟨(i 0).val / 10000, by rw [hN]; omega⟩
  obtain ⟨e0, e1, e2, e3, e4, e5⟩ := idx5 t
  have ht : t.val = (i 0).val / 10000 := rfl
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

end Cert.KernelIdeal.Hand

end
-- ==== Proof.Region6.lean ====
/-
  Region 6 of the kernel program: the head on the pooled rows, one grid point, every window its whole array. Whatever the
  buffers hold when the region is entered, the output array [2000, 1] after the region is the body's arithmetic — one pure
  function of five arrays — applied to the five input arrays themselves: each window's one block sits at block index (0, 0)
  with the array's own extents, so reading an array through it changes nothing, and the one block covers the output.
-/
import proofs.«164145_j66477503807678_1_alg».proof.Proof.Gen.KernelIdeal.Frame
import proofs.«164145_j66477503807678_1_alg».proof.Proof.LibRowTiles
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.LibRowTiles

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the one-point grid: every window's block index is (0, 0). -/
theorem idx6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Window 0's block is its whole array. -/
theorem iblk6_0 (c : Dev nD) (t : Fin cfg6.N) : (iblk6 V c 0 t : Vec Ideal S2000x64 .f32) = V c main_v91 := by
  obtain ⟨e0, e1, e2, e3, e4, e5, e6, e7, e8, e9, e10, e11⟩ := idx6 t
  funext z
  show V c main_v91 (((cfg6.win 0).blk t).view.emb z) = V c main_v91 z
  refine congrArg (V c main_v91) (funext fun a => Fin.ext ?_)
  match a with
  | ⟨0, _⟩ => show win6_0.index t (0 : Fin 2) * 2000 + 1 * (z 0).val = (z 0).val; omega
  | ⟨1, _⟩ => show win6_0.index t (1 : Fin 2) * 64 + 1 * (z 1).val = (z 1).val; omega

/-- Window 1's block is its whole array. -/
theorem iblk6_1 (c : Dev nD) (t : Fin cfg6.N) : (iblk6 V c 1 t : Vec Ideal S64x64 .f32) = V c main_arg7 := by
  obtain ⟨e0, e1, e2, e3, e4, e5, e6, e7, e8, e9, e10, e11⟩ := idx6 t
  funext z
  show V c main_arg7 (((cfg6.win 1).blk t).view.emb z) = V c main_arg7 z
  refine congrArg (V c main_arg7) (funext fun a => Fin.ext ?_)
  match a with
  | ⟨0, _⟩ => show win6_1.index t (0 : Fin 2) * 64 + 1 * (z 0).val = (z 0).val; omega
  | ⟨1, _⟩ => show win6_1.index t (1 : Fin 2) * 64 + 1 * (z 1).val = (z 1).val; omega

/-- Window 2's block is its whole array. -/
theorem iblk6_2 (c : Dev nD) (t : Fin cfg6.N) : (iblk6 V c 2 t : Vec Ideal S1x64 .f32) = V c main_v92 := by
  obtain ⟨e0, e1, e2, e3, e4, e5, e6, e7, e8, e9, e10, e11⟩ := idx6 t
  funext z
  show V c main_v92 (((cfg6.win 2).blk t).view.emb z) = V c main_v92 z
  refine congrArg (V c main_v92) (funext fun a => Fin.ext ?_)
  match a with
  | ⟨0, _⟩ => show win6_2.index t (0 : Fin 2) * 1 + 1 * (z 0).val = (z 0).val; omega
  | ⟨1, _⟩ => show win6_2.index t (1 : Fin 2) * 64 + 1 * (z 1).val = (z 1).val; omega

/-- Window 3's block is its whole array. -/
theorem iblk6_3 (c : Dev nD) (t : Fin cfg6.N) : (iblk6 V c 3 t : Vec Ideal S64x1 .f32) = V c main_arg9 := by
  obtain ⟨e0, e1, e2, e3, e4, e5, e6, e7, e8, e9, e10, e11⟩ := idx6 t
  funext z
  show V c main_arg9 (((cfg6.win 3).blk t).view.emb z) = V c main_arg9 z
  refine congrArg (V c main_arg9) (funext fun a => Fin.ext ?_)
  match a with
  | ⟨0, _⟩ => show win6_3.index t (0 : Fin 2) * 64 + 1 * (z 0).val = (z 0).val; omega
  | ⟨1, _⟩ => show win6_3.index t (1 : Fin 2) * 1 + 1 * (z 1).val = (z 1).val; omega

/-- Window 4's block is its whole array. -/
theorem iblk6_4 (c : Dev nD) (t : Fin cfg6.N) : (iblk6 V c 4 t : Vec Ideal S1x1 .f32) = V c main_v93 := by
  obtain ⟨e0, e1, e2, e3, e4, e5, e6, e7, e8, e9, e10, e11⟩ := idx6 t
  funext z
  show V c main_v93 (((cfg6.win 4).blk t).view.emb z) = V c main_v93 z
  refine congrArg (V c main_v93) (funext fun a => Fin.ext ?_)
  match a with
  | ⟨0, _⟩ => show win6_4.index t (0 : Fin 2) * 1 + 1 * (z 0).val = (z 0).val; omega
  | ⟨1, _⟩ => show win6_4.index t (1 : Fin 2) * 1 + 1 * (z 1).val = (z 1).val; omega

/-- What the one point writes back is the body's function of the five whole arrays, read through the whole-array block. -/
theorem flushed6 (c : Dev nD) (t : Fin cfg6.N) :
    (dat6 V c).flushed 5 t = ((cfg6.win 5).blk t).view.read (Elt Ideal)
      (k6_pay1 (V c main_v91) (V c main_arg7) (V c main_v92) (V c main_arg9) (V c main_v93)) := by
  show (cfg6.win 5).cut (grid6.coords t) ((dat6 V c).after 5 t) = _
  rw [after6_5]
  unfold out6_5
  rw [View.canon_unit_zero hz6]
  simp only [View.ld_unit_zero (S := S2000x64) hz6, View.ld_unit_zero (S := S64x64) hz6, View.ld_unit_zero (S := S1x64) hz6,
    View.ld_unit_zero (S := S64x1) hz6, View.ld_unit_zero (S := S1x1) hz6]
  rw [iblk6_0 V c t, iblk6_1 V c t, iblk6_2 V c t, iblk6_3 V c t, iblk6_4 V c t]
  obtain ⟨e0, e1, e2, e3, e4, e5, e6, e7, e8, e9, e10, e11⟩ := idx6 t
  funext y
  show k6_pay1 (V c main_v91) (V c main_arg7) (V c main_v92) (V c main_arg9) (V c main_v93) y
    = k6_pay1 (V c main_v91) (V c main_arg7) (V c main_v92) (V c main_arg9) (V c main_v93) (((cfg6.win 5).blk t).view.emb y)
  refine congrArg (k6_pay1 (V c main_v91) (V c main_arg7) (V c main_v92) (V c main_arg9) (V c main_v93)) (funext fun a => Fin.ext ?_)
  match a with
  | ⟨0, _⟩ => show (y 0).val = win6_5.index t (0 : Fin 2) * 2000 + 1 * (y 0).val; omega
  | ⟨1, _⟩ => show (y 1).val = win6_5.index t (1 : Fin 2) * 1 + 1 * (y 1).val; omega

/-- An index of the output array is in the point's block iff each coordinate is in the block's range on its axis. -/
theorem mem_blk6 (t : Fin cfg6.N) (i : S2000x1.Idx) :
    i ∈ ((cfg6.win 5).blk t).view.set ↔ ∀ a : Fin 2, win6_5.index t a * S2000x1.size a ≤ (i a).val ∧ (i a).val < win6_5.index t a * S2000x1.size a + S2000x1.size a := by
  show i ∈ ((View.whole main_v94).slice (win6_5.rect t)).set ↔ _
  rw [View.set_slice_whole, Rect.mem_set_unit]
  exact Iff.rfl

/-- The output array after region 6 is the body's function of the five input arrays as the region found them. -/
theorem arr6 (c : Dev nD) : (dat6 V c).arrAt 5 cfg6.N
    = k6_pay1 (V c main_v91) (V c main_arg7) (V c main_v92) (V c main_arg9) (V c main_v93) := by
  refine (dat6 V c).arrAt_eq_of_cover 5 _ (fun t _ => flushed6 V c t) fun i => ?_
  have hi0 : (i 0).val < 2000 := (i 0).isLt
  have hi1 : (i 1).val < 1 := (i 1).isLt
  obtain ⟨e0, e1, e2, e3, e4, e5, e6, e7, e8, e9, e10, e11⟩ := idx6 t6_0
  refine ⟨t6_0, flush6_5 t6_0, ?_⟩
  rw [mem_blk6]
  intro a
  match a with
  | ⟨0, _⟩ => show win6_5.index t6_0 (0 : Fin 2) * 2000 ≤ (i 0).val ∧ (i 0).val < win6_5.index t6_0 (0 : Fin 2) * 2000 + 2000; omega
  | ⟨1, _⟩ => show win6_5.index t6_0 (1 : Fin 2) * 1 ≤ (i 1).val ∧ (i 1).val < win6_5.index t6_0 (1 : Fin 2) * 1 + 1; omega

end Cert.KernelIdeal.Hand

end
-- ==== Proof.NetK.lean ====
/-
  The kernel program's result as one function of the thirteen argument arrays, in the kernel program's arrangement: each
  layer is the product of the node rows with the layer's weights (`prod`), the weighted neighbourhood sum (`agg`, on the
  edge columns and weights every layer shares), and the bias row added under the maximum with zero (`biasRelu`, the bias
  vector recast as one row); then the graph means (`pool`) and the head's arithmetic as the last kernel's body computes it.
-/
import proofs.«164145_j66477503807678_1_alg».proof.Proof.Gen.KernelIdeal.Skeleton
import proofs.«164145_j66477503807678_1_alg».proof.Proof.StagesR
import proofs.«164145_j66477503807678_1_alg».proof.Proof.LibRowTiles

noncomputable section

namespace Cert.KernelIdeal.Hand

open Cert.KernelIdeal Cert.KernelIdeal.Gen Idealize.ShloMosaic Cert.LibRowTiles

/-- A bias vector recast as a one-row matrix. -/
def rowOf (b : FVec Ideal S64 .f32) : FVec Ideal S1x64 .f32 := shapeCast S1x64 b shapeCasts_S64_S1x64

/-- One layer in the kernel program's arrangement: the product, the weighted neighbourhood sum, bias and relu. -/
def layerK {K : Nat} (e : IVec S2x1600000 32) (h : FVec Ideal ⟨2, ![100000, K]⟩ .f32) (W : FVec Ideal ⟨2, ![K, 64]⟩ .f32) (b : FVec Ideal S64 .f32) :
    FVec Ideal S100000x64 .f32 :=
  biasRelu (Cert.Stages.agg (Cert.Stages.norm (Cert.Stages.src e) (Cert.Stages.dst e)) (Cert.Stages.src e) (Cert.Stages.dst e) (prod h W)) (rowOf b)

/-- The kernel program's result as one function of the argument arrays. -/
def netK (x : FVec Ideal S100000x20 .f32) (W1 : FVec Ideal S20x64 .f32) (b1 : FVec Ideal S64 .f32) (W2 : FVec Ideal S64x64 .f32) (b2 : FVec Ideal S64 .f32)
    (W3 : FVec Ideal S64x64 .f32) (b3 : FVec Ideal S64 .f32) (lw1 : FVec Ideal S64x64 .f32) (lb1 : FVec Ideal S64 .f32) (lw2 : FVec Ideal S64x1 .f32) (lb2 : FVec Ideal S1 .f32)
    (e : IVec S2x1600000 32) (batch : IVec S100000 32) : FVec Ideal S2000x1 .f32 :=
  k6_pay1 (Cert.Stages.pool (layerK e (layerK e (layerK e x W1 b1) W2 b2) W3 b3) batch) lw1 (rowOf lb1) lw2 (shapeCast S1x1 lb2 shapeCasts_S1_S1x1)

end Cert.KernelIdeal.Hand

end
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.KernelValue.lean ====
/-
  What the kernel program's result buffer holds at the last segment boundary, followed back through the fourteen
  segments to the argument arrays. A host stretch computes its buffers from those it reads and leaves every other buffer
  alone; a region leaves its output array at the closed form of its two (or five) input arrays as it found them (the
  region modules) and every buffer that is not one of its arrays alone. So the edge columns and the edge weights computed
  before the first region are still in place when each layer's gather and segment sum read them, each weight and bias
  argument is still the launch memory's when its layer reads it, and each region's input array is the previous stage's
  output. Composed: the result is `netK` of the argument arrays — three times (product, weighted neighbourhood sum,
  bias and relu), the graph mean, and the head's arithmetic.
-/
import proofs.«164145_j66477503807678_1_alg».proof.Proof.Gen.KernelIdeal.Frame
import proofs.«164145_j66477503807678_1_alg».proof.Proof.Region0
import proofs.«164145_j66477503807678_1_alg».proof.Proof.Region1
import proofs.«164145_j66477503807678_1_alg».proof.Proof.Region2
import proofs.«164145_j66477503807678_1_alg».proof.Proof.Region3
import proofs.«164145_j66477503807678_1_alg».proof.Proof.Region4
import proofs.«164145_j66477503807678_1_alg».proof.Proof.Region5
import proofs.«164145_j66477503807678_1_alg».proof.Proof.Region6
import proofs.«164145_j66477503807678_1_alg».proof.Proof.StagesR
import proofs.«164145_j66477503807678_1_alg».proof.Proof.NetK
import proofs.«164145_j66477503807678_1_alg».proof.Proof.LibTypedRef
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.LibRowTiles

/-! ## The host stretches over any buffer contents -/

section Stretches

variable (Vq : Valuation τ sig (Elt Ideal))

/-- A line of host operations run in two parts. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-! After the two edge columns are laid out, the rest of the first stretch computes, from the target column, where the
    degree is positive, the inverse square root of the degree clipped at one, and a zero; the columns stay in place. -/

theorem tail0_pos : StableHlo.after ((hostOps0 (F := Ideal)).drop 7) Vq (Proc.devRef .tc main_v12)
    = cmpf (F := Ideal) .ogt (Cert.Stages.deg (Vq (Proc.devRef .tc main_v6))) (broadcastInDim S100000 ![] bcast_S_S100000 (constant (F := Ideal) S_ .f32 0x00000000#32)) := by
  simp only [hostOps0, List.drop_succ_cons, List.drop_zero]
  after_results_simp <;> rfl

theorem tail0_rs : StableHlo.after ((hostOps0 (F := Ideal)).drop 7) Vq (Proc.devRef .tc main_v15)
    = Host.rsqrt (maximumf (Cert.Stages.deg (Vq (Proc.devRef .tc main_v6))) (broadcastInDim S100000 ![] bcast_S_S100000 (constant (F := Ideal) S_ .f32 0x3F800000#32))) := by
  simp only [hostOps0, List.drop_succ_cons, List.drop_zero]
  after_results_simp <;> rfl

theorem tail0_c3 : StableHlo.after ((hostOps0 (F := Ideal)).drop 7) Vq (Proc.devRef .tc main_cst_3)
    = constant (F := Ideal) S_ .f32 0x00000000#32 := by
  simp only [hostOps0, List.drop_succ_cons, List.drop_zero]
  after_results_simp <;> rfl

theorem tail0_keep3 : StableHlo.after ((hostOps0 (F := Ideal)).drop 7) Vq (Proc.devRef .tc main_v3) = (Vq (Proc.devRef .tc main_v3)) := by
  simp only [hostOps0, List.drop_succ_cons, List.drop_zero]
  after_results_simp

theorem tail0_keep6 : StableHlo.after ((hostOps0 (F := Ideal)).drop 7) Vq (Proc.devRef .tc main_v6) = (Vq (Proc.devRef .tc main_v6)) := by
  simp only [hostOps0, List.drop_succ_cons, List.drop_zero]
  after_results_simp

/-! The guarded inverse square root: the select of the three. -/

theorem where_v16 : StableHlo.after (hostOps0_1 (F := Ideal)) Vq (Proc.devRef .tc main_v16)
    = (select (Vq (Proc.devRef .tc main_v12)) (Vq (Proc.devRef .tc main_v15)) (broadcastInDim S100000 ![] bcast_S_S100000 (id (Vq (Proc.devRef .tc main_cst_3)))) : FVec Ideal S100000 .f32) := by
  simp only [hostOps0_1]
  after_results_simp
  simp only [Cert.LibTypedRef.ofBuf_toBuf, Cert.LibTypedRef.toBuf_ofBuf]
  rfl

theorem where_keep3 : StableHlo.after (hostOps0_1 (F := Ideal)) Vq (Proc.devRef .tc main_v3) = (Vq (Proc.devRef .tc main_v3)) := by
  simp only [hostOps0_1]
  after_results_simp

theorem where_keep6 : StableHlo.after (hostOps0_1 (F := Ideal)) Vq (Proc.devRef .tc main_v6) = (Vq (Proc.devRef .tc main_v6)) := by
  simp only [hostOps0_1]
  after_results_simp

/-! The edge weights: the guarded inverse square root gathered at the sources times the same gathered at the targets. -/

theorem ops02_v31 : StableHlo.after (hostOps0_2 (F := Ideal)) Vq (Proc.devRef .tc main_v31)
    = (mulf (Host.gather gather_S100000_S1700000x1_S1700000_n_0_n_n_0_1_1 ((Vq (Proc.devRef .tc main_v16)) : FVec Ideal S100000 .f32) (Cert.Stages.wrap (Vq (Proc.devRef .tc main_v3))))
        (Host.gather gather_S100000_S1700000x1_S1700000_n_0_n_n_0_1_1 ((Vq (Proc.devRef .tc main_v16)) : FVec Ideal S100000 .f32) (Cert.Stages.wrap (Vq (Proc.devRef .tc main_v6)))) : FVec Ideal S1700000 .f32) := by
  simp only [hostOps0_2]
  after_results_simp <;> rfl

theorem ops02_keep3 : StableHlo.after (hostOps0_2 (F := Ideal)) Vq (Proc.devRef .tc main_v3) = (Vq (Proc.devRef .tc main_v3)) := by
  simp only [hostOps0_2]
  after_results_simp

theorem ops02_keep6 : StableHlo.after (hostOps0_2 (F := Ideal)) Vq (Proc.devRef .tc main_v6) = (Vq (Proc.devRef .tc main_v6)) := by
  simp only [hostOps0_2]
  after_results_simp

/-! Each layer's stretch between its two regions: the weighted neighbourhood sum of the transformed rows, and the bias
    vector recast as one row. -/

theorem H1_agg : StableHlo.after (hostOps1 (F := Ideal)) Vq (Proc.devRef .tc main_v45) = Cert.Stages.agg (Vq (Proc.devRef .tc main_v31)) (Vq (Proc.devRef .tc main_v3)) (Vq (Proc.devRef .tc main_v6)) (Vq (Proc.devRef .tc main_v32)) := by
  simp only [hostOps1]
  after_results_simp <;> rfl

theorem H1_row : StableHlo.after (hostOps1 (F := Ideal)) Vq (Proc.devRef .tc main_v46) = rowOf (Vq (Proc.devRef .tc main_arg2)) := by
  simp only [hostOps1]
  after_results_simp <;> rfl

theorem H3_agg : StableHlo.after (hostOps3 (F := Ideal)) Vq (Proc.devRef .tc main_v61) = Cert.Stages.agg (Vq (Proc.devRef .tc main_v31)) (Vq (Proc.devRef .tc main_v3)) (Vq (Proc.devRef .tc main_v6)) (Vq (Proc.devRef .tc main_v48)) := by
  simp only [hostOps3]
  after_results_simp <;> rfl

theorem H3_row : StableHlo.after (hostOps3 (F := Ideal)) Vq (Proc.devRef .tc main_v62) = rowOf (Vq (Proc.devRef .tc main_arg4)) := by
  simp only [hostOps3]
  after_results_simp <;> rfl

theorem H5_agg : StableHlo.after (hostOps5 (F := Ideal)) Vq (Proc.devRef .tc main_v77) = Cert.Stages.agg (Vq (Proc.devRef .tc main_v31)) (Vq (Proc.devRef .tc main_v3)) (Vq (Proc.devRef .tc main_v6)) (Vq (Proc.devRef .tc main_v64)) := by
  simp only [hostOps5]
  after_results_simp <;> rfl

theorem H5_row : StableHlo.after (hostOps5 (F := Ideal)) Vq (Proc.devRef .tc main_v78) = rowOf (Vq (Proc.devRef .tc main_arg6)) := by
  simp only [hostOps5]
  after_results_simp <;> rfl

/-! The last stretch: the graph means, and the head's two bias vectors recast as rows. -/

theorem H6_pool : StableHlo.after (hostOps6 (F := Ideal)) Vq (Proc.devRef .tc main_v91) = Cert.Stages.pool (Vq (Proc.devRef .tc main_v79)) (Vq (Proc.devRef .tc main_arg12)) := by
  simp only [hostOps6]
  after_results_simp <;> rfl

theorem H6_row1 : StableHlo.after (hostOps6 (F := Ideal)) Vq (Proc.devRef .tc main_v92) = rowOf (Vq (Proc.devRef .tc main_arg8)) := by
  simp only [hostOps6]
  after_results_simp <;> rfl

theorem H6_row2 : StableHlo.after (hostOps6 (F := Ideal)) Vq (Proc.devRef .tc main_v93) = (shapeCast S1x1 (Vq (Proc.devRef .tc main_arg10)) shapeCasts_S1_S1x1 : FVec Ideal S1x1 .f32) := by
  simp only [hostOps6]
  after_results_simp <;> rfl

end Stretches

variable (m : (ℓ : Loc nD τ sig) → Buf (Elt Ideal) ℓ) (ρ : Dev nD → PrngReg) (c : Dev nD)

/-- One step back through a region: a buffer that is none of the region's arrays is as the region found it. -/
macro "back_region" : tactic => `(tactic| first
  | (rw [W4_of_ne]; rotate_left; decide) | (rw [W6_of_ne]; rotate_left; decide) | (rw [W7_of_ne]; rotate_left; decide)
  | (rw [W9_of_ne]; rotate_left; decide) | (rw [W10_of_ne]; rotate_left; decide) | (rw [W12_of_ne]; rotate_left; decide)
  | (rw [W14_of_ne]; rotate_left; decide))

/-- One step back through a host stretch after the first region: a buffer the stretch does not write is as it was. -/
macro "back_host" : tactic => `(tactic| first
  | (show StableHlo.after hostOps1 _ _ = _; simp only [hostOps1]; after_results_simp)
  | (show StableHlo.after hostOps3 _ _ = _; simp only [hostOps3]; after_results_simp)
  | (show StableHlo.after hostOps5 _ _ = _; simp only [hostOps5]; after_results_simp)
  | (show StableHlo.after hostOps6 _ _ = _; simp only [hostOps6]; after_results_simp))

/-! ## Before the first region -/

/-- The buffers once the two edge columns are laid out (the first seven host operations: the self loops, the two rows of
    the edge list, each joined with the self loops). -/
def Vp : Valuation τ sig (Elt Ideal) := StableHlo.after ((hostOps0 (F := Ideal)).take 7) (W0 m ρ c)

theorem W1_split : W1 m ρ c = StableHlo.after ((hostOps0 (F := Ideal)).drop 7) (Vp m ρ c) := by
  show StableHlo.after hostOps0 (W0 m ρ c) = _
  unfold Vp
  rw [← after_append, List.take_append_drop]

theorem Vp_src : Vp m ρ c (Proc.devRef .tc main_v3) = Cert.Stages.src (m ((c : Thread nD τ).loc main_arg11)) := by
  unfold Vp
  simp only [hostOps0, List.take_succ_cons, List.take_zero]
  after_results_simp <;> rfl

theorem Vp_dst : Vp m ρ c (Proc.devRef .tc main_v6) = Cert.Stages.dst (m ((c : Thread nD τ).loc main_arg11)) := by
  unfold Vp
  simp only [hostOps0, List.take_succ_cons, List.take_zero]
  after_results_simp <;> rfl

theorem W3_src : W3 m ρ c (Proc.devRef .tc main_v3) = Cert.Stages.src (m ((c : Thread nD τ).loc main_arg11)) := by
  show StableHlo.after hostOps0_2 (StableHlo.after hostOps0_1 (W1 m ρ c)) (Proc.devRef .tc main_v3) = _
  rw [ops02_keep3, where_keep3, W1_split, tail0_keep3, Vp_src]

theorem W3_dst : W3 m ρ c (Proc.devRef .tc main_v6) = Cert.Stages.dst (m ((c : Thread nD τ).loc main_arg11)) := by
  show StableHlo.after hostOps0_2 (StableHlo.after hostOps0_1 (W1 m ρ c)) (Proc.devRef .tc main_v6) = _
  rw [ops02_keep6, where_keep6, W1_split, tail0_keep6, Vp_dst]

theorem W3_norm : W3 m ρ c (Proc.devRef .tc main_v31) = Cert.Stages.norm (Cert.Stages.src (m ((c : Thread nD τ).loc main_arg11))) (Cert.Stages.dst (m ((c : Thread nD τ).loc main_arg11))) := by
  show StableHlo.after hostOps0_2 (StableHlo.after hostOps0_1 (W1 m ρ c)) (Proc.devRef .tc main_v31) = _
  rw [ops02_v31, where_v16, where_keep3, where_keep6, W1_split, tail0_pos, tail0_rs, tail0_c3, tail0_keep3, tail0_keep6, Vp_src, Vp_dst]
  rfl

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0_2, hostOps0_1, hostOps0]
  after_results_simp <;> rfl

theorem W3_arg1 : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  simp only [hostOps0_2, hostOps0_1, hostOps0]
  after_results_simp <;> rfl

theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  simp only [hostOps0_2, hostOps0_1, hostOps0]
  after_results_simp <;> rfl

theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  simp only [hostOps0_2, hostOps0_1, hostOps0]
  after_results_simp <;> rfl

theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  simp only [hostOps0_2, hostOps0_1, hostOps0]
  after_results_simp <;> rfl

theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  simp only [hostOps0_2, hostOps0_1, hostOps0]
  after_results_simp <;> rfl

theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  simp only [hostOps0_2, hostOps0_1, hostOps0]
  after_results_simp <;> rfl

theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  simp only [hostOps0_2, hostOps0_1, hostOps0]
  after_results_simp <;> rfl

theorem W3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  simp only [hostOps0_2, hostOps0_1, hostOps0]
  after_results_simp <;> rfl

theorem W3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  simp only [hostOps0_2, hostOps0_1, hostOps0]
  after_results_simp <;> rfl

theorem W3_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  simp only [hostOps0_2, hostOps0_1, hostOps0]
  after_results_simp <;> rfl

theorem W3_arg12 : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  simp only [hostOps0_2, hostOps0_1, hostOps0]
  after_results_simp <;> rfl

/-! ## What stays in place: the edge columns and weights until the last layer has read them, each argument until it is read -/

theorem K4_v3 : W4 m ρ c (Proc.devRef .tc main_v3) = (Cert.Stages.src (m ((c : Thread nD τ).loc main_arg11))) := by
  repeat (first | back_region | back_host)
  exact W3_src m ρ c

theorem K4_v6 : W4 m ρ c (Proc.devRef .tc main_v6) = (Cert.Stages.dst (m ((c : Thread nD τ).loc main_arg11))) := by
  repeat (first | back_region | back_host)
  exact W3_dst m ρ c

theorem K4_v31 : W4 m ρ c (Proc.devRef .tc main_v31) = (Cert.Stages.norm (Cert.Stages.src (m ((c : Thread nD τ).loc main_arg11))) (Cert.Stages.dst (m ((c : Thread nD τ).loc main_arg11)))) := by
  repeat (first | back_region | back_host)
  exact W3_norm m ρ c

theorem K7_v3 : W7 m ρ c (Proc.devRef .tc main_v3) = (Cert.Stages.src (m ((c : Thread nD τ).loc main_arg11))) := by
  repeat (first | back_region | back_host)
  exact W3_src m ρ c

theorem K7_v6 : W7 m ρ c (Proc.devRef .tc main_v6) = (Cert.Stages.dst (m ((c : Thread nD τ).loc main_arg11))) := by
  repeat (first | back_region | back_host)
  exact W3_dst m ρ c

theorem K7_v31 : W7 m ρ c (Proc.devRef .tc main_v31) = (Cert.Stages.norm (Cert.Stages.src (m ((c : Thread nD τ).loc main_arg11))) (Cert.Stages.dst (m ((c : Thread nD τ).loc main_arg11)))) := by
  repeat (first | back_region | back_host)
  exact W3_norm m ρ c

theorem K10_v3 : W10 m ρ c (Proc.devRef .tc main_v3) = (Cert.Stages.src (m ((c : Thread nD τ).loc main_arg11))) := by
  repeat (first | back_region | back_host)
  exact W3_src m ρ c

theorem K10_v6 : W10 m ρ c (Proc.devRef .tc main_v6) = (Cert.Stages.dst (m ((c : Thread nD τ).loc main_arg11))) := by
  repeat (first | back_region | back_host)
  exact W3_dst m ρ c

theorem K10_v31 : W10 m ρ c (Proc.devRef .tc main_v31) = (Cert.Stages.norm (Cert.Stages.src (m ((c : Thread nD τ).loc main_arg11))) (Cert.Stages.dst (m ((c : Thread nD τ).loc main_arg11)))) := by
  repeat (first | back_region | back_host)
  exact W3_norm m ρ c

theorem K4_arg2 : W4 m ρ c (Proc.devRef .tc main_arg2) = (m ((c : Thread nD τ).loc main_arg2)) := by
  repeat (first | back_region | back_host)
  exact W3_arg2 m ρ c

theorem K6_arg3 : W6 m ρ c (Proc.devRef .tc main_arg3) = (m ((c : Thread nD τ).loc main_arg3)) := by
  repeat (first | back_region | back_host)
  exact W3_arg3 m ρ c

theorem K7_arg4 : W7 m ρ c (Proc.devRef .tc main_arg4) = (m ((c : Thread nD τ).loc main_arg4)) := by
  repeat (first | back_region | back_host)
  exact W3_arg4 m ρ c

theorem K9_arg5 : W9 m ρ c (Proc.devRef .tc main_arg5) = (m ((c : Thread nD τ).loc main_arg5)) := by
  repeat (first | back_region | back_host)
  exact W3_arg5 m ρ c

theorem K10_arg6 : W10 m ρ c (Proc.devRef .tc main_arg6) = (m ((c : Thread nD τ).loc main_arg6)) := by
  repeat (first | back_region | back_host)
  exact W3_arg6 m ρ c

set_option maxHeartbeats 2000000 in
theorem K12_arg12 : W12 m ρ c (Proc.devRef .tc main_arg12) = (m ((c : Thread nD τ).loc main_arg12)) := by
  repeat (first | back_region | back_host)
  exact W3_arg12 m ρ c

set_option maxHeartbeats 2000000 in
theorem K12_arg8 : W12 m ρ c (Proc.devRef .tc main_arg8) = (m ((c : Thread nD τ).loc main_arg8)) := by
  repeat (first | back_region | back_host)
  exact W3_arg8 m ρ c

set_option maxHeartbeats 2000000 in
theorem K12_arg10 : W12 m ρ c (Proc.devRef .tc main_arg10) = (m ((c : Thread nD τ).loc main_arg10)) := by
  repeat (first | back_region | back_host)
  exact W3_arg10 m ρ c

set_option maxHeartbeats 2000000 in
theorem K13_arg7 : W13 m ρ c (Proc.devRef .tc main_arg7) = (m ((c : Thread nD τ).loc main_arg7)) := by
  repeat (first | back_region | back_host)
  exact W3_arg7 m ρ c

set_option maxHeartbeats 2000000 in
theorem K13_arg9 : W13 m ρ c (Proc.devRef .tc main_arg9) = (m ((c : Thread nD τ).loc main_arg9)) := by
  repeat (first | back_region | back_host)
  exact W3_arg9 m ρ c

/-! ## The seven regions' outputs and the stretches between them, in order -/

theorem W4_v32 : W4 m ρ c (Proc.devRef .tc main_v32) = prod (m ((c : Thread nD τ).loc main_arg0)) (m ((c : Thread nD τ).loc main_arg1)) := by
  refine (W4_arr m ρ c 2).trans ((arr0 (V3 m ρ) c).trans ?_)
  show prod (W3 m ρ c (Proc.devRef .tc main_arg0)) (W3 m ρ c (Proc.devRef .tc main_arg1)) = _
  rw [W3_arg0, W3_arg1]

theorem W6_v47 : W6 m ρ c (Proc.devRef .tc main_v47) = (layerK (m ((c : Thread nD τ).loc main_arg11)) (m ((c : Thread nD τ).loc main_arg0)) (m ((c : Thread nD τ).loc main_arg1)) (m ((c : Thread nD τ).loc main_arg2))) := by
  refine (W6_arr m ρ c 2).trans ((arr1 (V5 m ρ) c).trans ?_)
  show biasRelu (StableHlo.after hostOps1 (W4 m ρ c) (Proc.devRef .tc main_v45)) (StableHlo.after hostOps1 (W4 m ρ c) (Proc.devRef .tc main_v46)) = _
  rw [H1_agg, H1_row, K4_v31, K4_v3, K4_v6, W4_v32, K4_arg2]
  rfl

theorem W7_v48 : W7 m ρ c (Proc.devRef .tc main_v48) = prod (layerK (m ((c : Thread nD τ).loc main_arg11)) (m ((c : Thread nD τ).loc main_arg0)) (m ((c : Thread nD τ).loc main_arg1)) (m ((c : Thread nD τ).loc main_arg2))) (m ((c : Thread nD τ).loc main_arg3)) := by
  refine (W7_arr m ρ c 2).trans ((arr2 (V6 m ρ) c).trans ?_)
  show prod (W6 m ρ c (Proc.devRef .tc main_v47)) (W6 m ρ c (Proc.devRef .tc main_arg3)) = _
  rw [W6_v47, K6_arg3]

theorem W9_v63 : W9 m ρ c (Proc.devRef .tc main_v63) = (layerK (m ((c : Thread nD τ).loc main_arg11)) (layerK (m ((c : Thread nD τ).loc main_arg11)) (m ((c : Thread nD τ).loc main_arg0)) (m ((c : Thread nD τ).loc main_arg1)) (m ((c : Thread nD τ).loc main_arg2))) (m ((c : Thread nD τ).loc main_arg3)) (m ((c : Thread nD τ).loc main_arg4))) := by
  refine (W9_arr m ρ c 2).trans ((arr3 (V8 m ρ) c).trans ?_)
  show biasRelu (StableHlo.after hostOps3 (W7 m ρ c) (Proc.devRef .tc main_v61)) (StableHlo.after hostOps3 (W7 m ρ c) (Proc.devRef .tc main_v62)) = _
  rw [H3_agg, H3_row, K7_v31, K7_v3, K7_v6, W7_v48, K7_arg4]
  rfl

theorem W10_v64 : W10 m ρ c (Proc.devRef .tc main_v64) = prod (layerK (m ((c : Thread nD τ).loc main_arg11)) (layerK (m ((c : Thread nD τ).loc main_arg11)) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg5)) := by
  refine (W10_arr m ρ c 2).trans ((arr4 (V9 m ρ) c).trans ?_)
  show prod (W9 m ρ c (Proc.devRef .tc main_v63)) (W9 m ρ c (Proc.devRef .tc main_arg5)) = _
  rw [W9_v63, K9_arg5]

theorem W12_v79 : W12 m ρ c (Proc.devRef .tc main_v79) = (layerK (m ((c : Thread nD τ).loc main_arg11)) (layerK (m ((c : Thread nD τ).loc main_arg11)) (layerK (m ((c : Thread nD τ).loc main_arg11)) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg5)) (m ((c : Thread nD τ).loc main_arg6))) := by
  refine (W12_arr m ρ c 2).trans ((arr5 (V11 m ρ) c).trans ?_)
  show biasRelu (StableHlo.after hostOps5 (W10 m ρ c) (Proc.devRef .tc main_v77)) (StableHlo.after hostOps5 (W10 m ρ c) (Proc.devRef .tc main_v78)) = _
  rw [H5_agg, H5_row, K10_v31, K10_v3, K10_v6, W10_v64, K10_arg6]
  rfl

/-- The result buffer at the last boundary is `netK` of the argument arrays. -/
theorem W14_v94 : W14 m ρ c (Proc.devRef .tc main_v94)
    = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W14_arr m ρ c 5).trans ((arr6 (V13 m ρ) c).trans ?_)
  show k6_pay1 (StableHlo.after hostOps6 (W12 m ρ c) (Proc.devRef .tc main_v91)) (W13 m ρ c (Proc.devRef .tc main_arg7))
      (StableHlo.after hostOps6 (W12 m ρ c) (Proc.devRef .tc main_v92)) (W13 m ρ c (Proc.devRef .tc main_arg9))
      (StableHlo.after hostOps6 (W12 m ρ c) (Proc.devRef .tc main_v93)) = _
  rw [H6_pool, H6_row1, H6_row2, W12_v79, K12_arg12, K12_arg8, K12_arg10, K13_arg7, K13_arg9]
  rfl

end Cert.KernelIdeal.Hand

end
-- ==== Proof.Bridge.lean ====
/-
  The two arrangements of the network are one function of the argument arrays. They differ in three places only, each an
  identity of whole arrays at the ideal values with no finiteness hypothesis: a layer's feature transform is the host's
  dot_general in one and the tiled kernel's product in the other, both the exact sum Σ_k h(i, k) · W(k, j); a layer's bias
  and relu lays the bias vector along the rows by two broadcasts in one and by a one-row recast and one broadcast in the
  other, both (i, j) ↦ max (a(i, j) + b(j)) 0; and the head is those two identities again around its two products. The
  edge columns, the edge weights, the neighbourhood sums and the graph means are the same host operations on both sides
  and are never opened.
-/
import proofs.«164145_j66477503807678_1_alg».proof.Proof.NetK

noncomputable section

namespace Cert.Bridge

open Idealize.ShloMosaic Cert.LibRowTiles Cert.KernelIdeal.Hand

/-- One layer: the host's spelling is the kernel program's. -/
theorem layer_eq {K : Nat} (e : IVec Cert.ReferenceIdeal.S2x1600000 32) (h : FVec Ideal ⟨2, ![100000, K]⟩ .f32) (W : FVec Ideal ⟨2, ![K, 64]⟩ .f32)
    (b : FVec Ideal Cert.ReferenceIdeal.S64 .f32) (d : DotDims ⟨2, ![100000, K]⟩ ⟨2, ![K, 64]⟩ ⟨2, ![100000, 64]⟩) (hd : d = DotDims.plain 100000 K 64) :
    Cert.Stages.biasReluH (Cert.Stages.agg (Cert.Stages.norm (Cert.Stages.src e) (Cert.Stages.dst e)) (Cert.Stages.src e) (Cert.Stages.dst e)
        (Host.dotGeneral d none h W)) b
      = layerK e h W b := by
  unfold Cert.Stages.biasReluH layerK rowOf
  rw [dotGeneral_eq_prod d hd]
  exact host_biasRelu_eq ![] _ _ _ Cert.KernelIdeal.Gen.shapeCasts_S64_S1x64 _ b

/-- The head: the host's spelling is the last kernel's arithmetic on the whole arrays. -/
theorem head_eq (g : FVec Ideal Cert.ReferenceIdeal.S2000x64 .f32) (lw1 : FVec Ideal Cert.ReferenceIdeal.S64x64 .f32) (lb1 : FVec Ideal Cert.ReferenceIdeal.S64 .f32)
    (lw2 : FVec Ideal Cert.ReferenceIdeal.S64x1 .f32) (lb2 : FVec Ideal Cert.ReferenceIdeal.S1 .f32) :
    Cert.Stages.head g lw1 lb1 lw2 lb2
      = Cert.KernelIdeal.Gen.k6_pay1 g lw1 (rowOf lb1) lw2 (shapeCast Cert.KernelIdeal.S1x1 lb2 Cert.KernelIdeal.Gen.shapeCasts_S1_S1x1) := by
  unfold Cert.Stages.head Cert.KernelIdeal.Gen.k6_pay1 rowOf
  simp only [shapeCast_self]
  rw [dotGeneral_eq_prod Cert.ReferenceIdeal.dot_S2000x64_S64x1_S2000x1_1_0_0_1_n_n rfl,
    dotGeneral_eq_prod Cert.ReferenceIdeal.dot_S2000x64_S64x64_S2000x64_1_0_0_1_n_n rfl,
    host_biasRelu_eq ![] _ _ _ Cert.KernelIdeal.Gen.shapeCasts_S64_S1x64]
  rw [matmul_eq_prod Cert.KernelIdeal.dot_S2000x64_S64x64_S2000x64_1_0_0_1_n_n rfl Cert.KernelIdeal.Gen.bitsLt_bf16_f32, kernel_biasRelu_eq,
    matmul_eq_prod Cert.KernelIdeal.dot_S2000x64_S64x1_S2000x1_1_0_0_1_n_n rfl Cert.KernelIdeal.Gen.bitsLt_bf16_f32]
  rw [kernelRow_eq_hostRow lb2 Cert.KernelIdeal.Gen.shapeCasts_S1_S1x1 Cert.KernelIdeal.Gen.broadcasts_S1x1_S2000x1 Cert.ReferenceIdeal.Gen.bcast_S1_S1x1_1 Cert.ReferenceIdeal.Gen.bcast_S1x1_S2000x1_0_1]

/-- The reference's arrangement of the network is the kernel program's. -/
theorem net_eq (x : FVec Ideal Cert.ReferenceIdeal.S100000x20 .f32) (W1 : FVec Ideal Cert.ReferenceIdeal.S20x64 .f32) (b1 : FVec Ideal Cert.ReferenceIdeal.S64 .f32)
    (W2 : FVec Ideal Cert.ReferenceIdeal.S64x64 .f32) (b2 : FVec Ideal Cert.ReferenceIdeal.S64 .f32) (W3 : FVec Ideal Cert.ReferenceIdeal.S64x64 .f32) (b3 : FVec Ideal Cert.ReferenceIdeal.S64 .f32)
    (lw1 : FVec Ideal Cert.ReferenceIdeal.S64x64 .f32) (lb1 : FVec Ideal Cert.ReferenceIdeal.S64 .f32) (lw2 : FVec Ideal Cert.ReferenceIdeal.S64x1 .f32) (lb2 : FVec Ideal Cert.ReferenceIdeal.S1 .f32)
    (e : IVec Cert.ReferenceIdeal.S2x1600000 32) (batch : IVec Cert.ReferenceIdeal.S100000 32) :
    Cert.Stages.net x W1 b1 W2 b2 W3 b3 lw1 lb1 lw2 lb2 e batch = netK x W1 b1 W2 b2 W3 b3 lw1 lb1 lw2 lb2 e batch := by
  unfold Cert.Stages.net netK
  rw [layer_eq e x W1 b1 Cert.ReferenceIdeal.dot_S100000x20_S20x64_S100000x64_1_0_0_1_n_n rfl,
    layer_eq e _ W2 b2 Cert.ReferenceIdeal.dot_S100000x64_S64x64_S100000x64_1_0_0_1_n_n rfl,
    layer_eq e _ W3 b3 Cert.ReferenceIdeal.dot_S100000x64_S64x64_S100000x64_1_0_0_1_n_n rfl,
    head_eq]

end Cert.Bridge

end
-- ==== Proof.lean ====
/-
  A three-layer graph-convolution network with mean pooling and a two-layer head, over 100000 nodes, 1600000 edges plus
  the self loops, 64 hidden features and 2000 graphs: the kernel program against the jnp reference, at the ideal values.

  Both programs build the same edge columns and edge weights d(src)·d(dst), d the guarded inverse square root of the
  in-degree, by the same host operations. In each layer the reference computes relu(agg(h · W) + b) with the host's
  dot_general, gather, segment sum, broadcasts and maximum; the kernel program computes h · W in a kernel tiled over the
  rows (ten tiles of 10000 rows, the operands recast to bf16 on the way into the product, which is the identity on the
  ideal values), the same gather and segment sum on the host, and max(· + b, 0) in a second tiled kernel. After the graph
  means (the same host operations on both sides) the reference's head relu(g · lw1 + lb1) · lw2 + lb2 is one kernel in the
  kernel program. The two sides are equal entry by entry with no finiteness hypothesis: a tile's product into the zero
  accumulator is the same exact sum Σ_k h(i, k) · W(k, j) as the whole dot_general's entry, and the bias vector laid along
  the rows reads b(j) at (i, j) whether it is recast as one row and broadcast or broadcast twice; nothing is regrouped
  and nothing is cancelled, so the precondition is never opened.

  The modules: the seven regions' output arrays as closed forms of their input arrays (Region0 … Region6, over
  LibRowTiles); the kernel program's run with its result named (KernelRun) and followed back through the fourteen segments
  to the argument arrays (KernelValue, the result is `netK`); the reference's run (RefRun) and its result as the staged
  function `net` (StagesR); `net = netK` (Bridge). The three frames are the generated frame proofs and the reference's run
  with its result dropped; the idealization rewrote nothing, so that conjunct is `True`.
-/
import proofs.«164145_j66477503807678_1_alg».proof.Defs
import proofs.«164145_j66477503807678_1_alg».proof.Proof.Gen.Kernel
import proofs.«164145_j66477503807678_1_alg».proof.Proof.Gen.Kernel.Frame
import proofs.«164145_j66477503807678_1_alg».proof.Proof.Gen.KernelIdeal
import proofs.«164145_j66477503807678_1_alg».proof.Proof.Gen.KernelIdeal.Frame
import proofs.«164145_j66477503807678_1_alg».proof.Proof.Gen.ReferenceIdeal
import proofs.«164145_j66477503807678_1_alg».proof.Proof.Gen.Pre_finite_inputs
import proofs.«164145_j66477503807678_1_alg».proof.Proof.RefRun
import proofs.«164145_j66477503807678_1_alg».proof.Proof.StagesR
import proofs.«164145_j66477503807678_1_alg».proof.Proof.KernelRun
import proofs.«164145_j66477503807678_1_alg».proof.Proof.KernelValue
import proofs.«164145_j66477503807678_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the network's value of the argument arrays: the
    kernel program by its run followed back through the segments, the reference by its run and the two arrangements'
    identity. -/
theorem algebraic : Cert.algebraic_KernelIdeal_ReferenceIdeal := by
  intro m ρ m' ρ' _ hagree
  refine ⟨fun c => Cert.KernelIdeal.Hand.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.W14_v94 m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.ValueP.run (F := Ideal) m' ρ')
    rw [Cert.Stages.res_eq, Cert.Bridge.net_eq]
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
